-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S4x2048x1 : Shape := ⟨3, ![4, 2048, 1]⟩
abbrev S4x2048x128 : Shape := ⟨3, ![4, 2048, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S128x256 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S256 .f32) (main_arg8 : FVec F S256 .f32) (main_arg9 : FVec F S128x256 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S8192x8192 .f32) (main_arg1 : IVec S4x2048x1 1) (main_arg2 : FVec F S4x2048x128 .f32) (main_arg3 : FVec F S256 .f32) (main_arg4 : FVec F S256 .f32) (main_arg5 : FVec F S128x256 .f32) (main_arg6 : FVec F S128 .f32) (main_arg7 : FVec F S256 .f32) (main_arg8 : FVec F S256 .f32) (main_arg9 : FVec F S128x256 .f32) (main_arg10 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S4x2048x128 .f32 := Host.absf main_arg2
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S8192x8192 : Shape := ⟨2, ![8192, 8192]⟩
abbrev S4x2048x1 : Shape := ⟨3, ![4, 2048, 1]⟩
abbrev S4x2048x128 : Shape := ⟨3, ![4, 2048, 128]⟩
abbrev S256 : Shape := ⟨1, ![256]⟩
abbrev S128x256 : Shape := ⟨2, ![128, 256]⟩
abbrev S128 : Shape := ⟨1, ![128]⟩
abbrev S_ : Shape := ⟨0, ![]⟩
abbrev S8192x128 : Shape := ⟨2, ![8192, 128]⟩
abbrev S1024x2048 : Shape := ⟨2, ![1024, 2048]⟩
abbrev S2048x128 : Shape := ⟨2, ![2048, 128]⟩
abbrev S1024x128 : Shape := ⟨2, ![1024, 128]⟩
abbrev S4x2048x256 : Shape := ⟨3, ![4, 2048, 256]⟩
abbrev S8192x256 : Shape := ⟨2, ![8192, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 152
  | .vmem => 12
  | .smem => 0
  | _ => 0

abbrev hbmTy0_0 (i : Nat) : BufTy := match i % 128 with
  | 0 => ⟨S8192x8192, .f32⟩
  | 1 => ⟨S4x2048x1, .i1⟩
  | 2 => ⟨S4x2048x128, .f32⟩
  | 3 => ⟨S256, .f32⟩
  | 4 => ⟨S256, .f32⟩
  | 5 => ⟨S128x256, .f32⟩
  | 6 => ⟨S128, .f32⟩
  | 7 => ⟨S256, .f32⟩
  | 8 => ⟨S256, .f32⟩
  | 9 => ⟨S128x256, .f32⟩
  | 10 => ⟨S128, .f32⟩
  | 11 => ⟨S_, .f32⟩
  | 12 => ⟨S4x2048x128, .f32⟩
  | 13 => ⟨S4x2048x128, .i1⟩
  | 14 => ⟨S_, .f32⟩
  | 15 => ⟨S4x2048x128, .f32⟩
  | 16 => ⟨S4x2048x128, .i1⟩
  | 17 => ⟨S_, .f32⟩
  | 18 => ⟨S_, .f32⟩
  | 19 => ⟨S4x2048x128, .f32⟩
  | 20 => ⟨S4x2048x128, .f32⟩
  | 21 => ⟨S4x2048x128, .f32⟩
  | 22 => ⟨S_, .f32⟩
  | 23 => ⟨S4x2048x128, .f32⟩
  | 24 => ⟨S4x2048x128, .f32⟩
  | 25 => ⟨S4x2048x128, .f32⟩
  | 26 => ⟨S8192x128, .f32⟩
  | 27 => ⟨S8192x128, .f32⟩
  | 28 => ⟨S4x2048x128, .f32⟩
  | 29 => ⟨S4x2048x256, .f32⟩
  | 30 => ⟨S8192x256, .f32⟩
  | 31 => ⟨S_, .f32⟩
  | 32 => ⟨S256, .f32⟩
  | 33 => ⟨S_, .f32⟩
  | 34 => ⟨S256, .f32⟩
  | 35 => ⟨S256, .f32⟩
  | 36 => ⟨S_, .i32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S8192x256, .f32⟩
  | 44 => ⟨S8192x256, .f32⟩
  | 45 => ⟨S8192x256, .f32⟩
  | 46 => ⟨S_, .f32⟩
  | 47 => ⟨S_, .f32⟩
  | 48 => ⟨S_, .f32⟩
  | 49 => ⟨S_, .f32⟩
  | 50 => ⟨S256, .f32⟩
  | 51 => ⟨S256, .f32⟩
  | 52 => ⟨S256, .f32⟩
  | 53 => ⟨S_, .f32⟩
  | 54 => ⟨S_, .i1⟩
  | 55 => ⟨S_, .f32⟩
  | 56 => ⟨S_, .f32⟩
  | 57 => ⟨S256, .f32⟩
  | 58 => ⟨S256, .f32⟩
  | 59 => ⟨S1x256, .f32⟩
  | 60 => ⟨S8192x256, .f32⟩
  | 61 => ⟨S8192x256, .f32⟩
  | 62 => ⟨S_, .f32⟩
  | 63 => ⟨S256, .f32⟩
  | 64 => ⟨S256, .f32⟩
  | 65 => ⟨S256, .f32⟩
  | 66 => ⟨S1x256, .f32⟩
  | 67 => ⟨S8192x256, .f32⟩
  | 68 => ⟨S8192x256, .f32⟩
  | 69 => ⟨S1x256, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S256x128, .f32⟩
  | 76 => ⟨S8192x128, .f32⟩
  | 77 => ⟨S1x128, .f32⟩
  | 78 => ⟨S8192x128, .f32⟩
  | 79 => ⟨S8192x128, .f32⟩
  | 80 => ⟨S4x2048x128, .f32⟩
  | 81 => ⟨S_, .f32⟩
  | 82 => ⟨S4x2048x128, .f32⟩
  | 83 => ⟨S4x2048x128, .i1⟩
  | 84 => ⟨S_, .f32⟩
  | 85 => ⟨S4x2048x128, .f32⟩
  | 86 => ⟨S4x2048x128, .i1⟩
  | 87 => ⟨S_, .f32⟩
  | 88 => ⟨S_, .f32⟩
  | 89 => ⟨S4x2048x128, .f32⟩
  | 90 => ⟨S4x2048x128, .f32⟩
  | 91 => ⟨S4x2048x128, .f32⟩
  | 92 => ⟨S_, .f32⟩
  | 93 => ⟨S4x2048x128, .f32⟩
  | 94 => ⟨S4x2048x128, .f32⟩
  | 95 => ⟨S4x2048x128, .f32⟩
  | 96 => ⟨S8192x128, .f32⟩
  | 97 => ⟨S8192x128, .f32⟩
  | 98 => ⟨S4x2048x128, .f32⟩
  | 99 => ⟨S4x2048x256, .f32⟩
  | 100 => ⟨S8192x256, .f32⟩
  | 101 => ⟨S_, .f32⟩
  | 102 => ⟨S256, .f32⟩
  | 103 => ⟨S_, .f32⟩
  | 104 => ⟨S256, .f32⟩
  | 105 => ⟨S256, .f32⟩
  | 106 => ⟨S_, .i32⟩
  | 107 => ⟨S_, .f32⟩
  | 108 => ⟨S256, .f32⟩
  | 109 => ⟨S1x256, .f32⟩
  | 110 => ⟨S_, .f32⟩
  | 111 => ⟨S1x256, .f32⟩
  | 112 => ⟨S1x256, .f32⟩
  | 113 => ⟨S8192x256, .f32⟩
  | 114 => ⟨S8192x256, .f32⟩
  | 115 => ⟨S8192x256, .f32⟩
  | 116 => ⟨S_, .f32⟩
  | 117 => ⟨S_, .f32⟩
  | 118 => ⟨S_, .f32⟩
  | 119 => ⟨S_, .f32⟩
  | 120 => ⟨S256, .f32⟩
  | 121 => ⟨S256, .f32⟩
  | 122 => ⟨S256, .f32⟩
  | 123 => ⟨S_, .f32⟩
  | 124 => ⟨S_, .i1⟩
  | 125 => ⟨S_, .f32⟩
  | 126 => ⟨S_, .f32⟩
  | 127 => ⟨S256, .f32⟩
  | _ => ⟨S8192x8192, .f32⟩

abbrev hbmTy0_1 (i : Nat) : BufTy := match i % 128 with
  | 0 => ⟨S256, .f32⟩
  | 1 => ⟨S1x256, .f32⟩
  | 2 => ⟨S8192x256, .f32⟩
  | 3 => ⟨S8192x256, .f32⟩
  | 4 => ⟨S_, .f32⟩
  | 5 => ⟨S256, .f32⟩
  | 6 => ⟨S256, .f32⟩
  | 7 => ⟨S256, .f32⟩
  | 8 => ⟨S1x256, .f32⟩
  | 9 => ⟨S8192x256, .f32⟩
  | 10 => ⟨S8192x256, .f32⟩
  | 11 => ⟨S1x256, .f32⟩
  | 12 => ⟨S8192x256, .f32⟩
  | 13 => ⟨S8192x256, .f32⟩
  | 14 => ⟨S1x256, .f32⟩
  | 15 => ⟨S8192x256, .f32⟩
  | 16 => ⟨S8192x256, .f32⟩
  | 17 => ⟨S256x128, .f32⟩
  | 18 => ⟨S8192x128, .f32⟩
  | 19 => ⟨S1x128, .f32⟩
  | 20 => ⟨S8192x128, .f32⟩
  | 21 => ⟨S8192x128, .f32⟩
  | 22 => ⟨S4x2048x128, .f32⟩
  | 23 => ⟨S4x2048x128, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x2048, .f32⟩
  | .local _ .vmem, ⟨7, _⟩ => ⟨S1024x2048, .f32⟩
  | .local _ .vmem, ⟨8, _⟩ => ⟨S2048x128, .f32⟩
  | .local _ .vmem, ⟨9, _⟩ => ⟨S2048x128, .f32⟩
  | .local _ .vmem, ⟨10, _⟩ => ⟨S1024x128, .f32⟩
  | .local _ .vmem, ⟨11, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_cst_1 : Ref sig .tc := ⟨.hbm, 87, rfl⟩
abbrev main_call2_call0_v0 : Ref sig .tc := ⟨.hbm, 88, rfl⟩
abbrev main_call2_call0_v1 : Ref sig .tc := ⟨.hbm, 89, rfl⟩
abbrev main_call2_v4 : Ref sig .tc := ⟨.hbm, 90, rfl⟩
abbrev main_call2_v5 : Ref sig .tc := ⟨.hbm, 91, rfl⟩
abbrev main_call2_cst_2 : Ref sig .tc := ⟨.hbm, 92, rfl⟩
abbrev main_call2_v6 : Ref sig .tc := ⟨.hbm, 93, rfl⟩
abbrev main_call2_v7 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_2 : Ref sig .tc := ⟨.hbm, 101, rfl⟩
abbrev main_v37 : Ref sig .tc := ⟨.hbm, 102, rfl⟩
abbrev main_cst_3 : Ref sig .tc := ⟨.hbm, 103, rfl⟩
abbrev main_v38 : Ref sig .tc := ⟨.hbm, 104, rfl⟩
abbrev main_v39 : Ref sig .tc := ⟨.hbm, 105, rfl⟩
abbrev main_c_4 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_cst_3 : Ref sig .tc := ⟨.hbm, 123, rfl⟩
abbrev main_call3_v12 : Ref sig .tc := ⟨.hbm, 124, rfl⟩
abbrev main_call3_cst_4 : Ref sig .tc := ⟨.hbm, 125, rfl⟩
abbrev main_call3_call0_v0 : Ref sig .tc := ⟨.hbm, 126, rfl⟩
abbrev main_call3_call0_v1 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_cst_5 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S4x2048x128 : S_.BroadcastsInDim S4x2048x128 (![] : Fin 0 → Fin S4x2048x128.rank)
  shapeCasts_S4x2048x128_S8192x128 : S4x2048x128.ShapeCasts S8192x128
  inb_S1024x128_S1024x128_0_0 : ∀ a, (![0, 0] : Fin 2 → Nat) a + S1024x128.size a ≤ S1024x128.size a
  h_S1024x128 : 0 < S1024x128.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S1024x128_S1024x128 : S1024x128.ShapeCasts S1024x128
  shapeCasts_S8192x128_S4x2048x128 : S8192x128.ShapeCasts S4x2048x128
  concatenates_S4x2048x128_S4x2048x128_S4x2048x256_d2 : Shape.Concatenates [S4x2048x128, S4x2048x128] S4x2048x256 2
  shapeCasts_S4x2048x256_S8192x256 : S4x2048x256.ShapeCasts S8192x256
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S1024x2048_S2048x128_S1024x128_1_0_0_1_n_n_wf : DotDims.WF S1024x2048 S2048x128 S1024x128 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S4x2048x1 : Shape := ⟨3, ![4, 2048, 1]⟩
abbrev S4x2048x128 : Shape := ⟨3, ![4, 2048, 128]⟩
abbrev S256 : Shape := ⟨1, ![256]⟩
abbrev S128x256 : Shape := ⟨2, ![128, 256]⟩
abbrev S128 : Shape := ⟨1, ![128]⟩
abbrev S_ : Shape := ⟨0, ![]⟩
abbrev S8192x128 : Shape := ⟨2, ![8192, 128]⟩
abbrev S4x2048x256 : Shape := ⟨3, ![4, 2048, 256]⟩
abbrev S8192x256 : Shape := ⟨2, ![8192, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 152
  | .vmem => 0
  | .smem => 0
  | _ => 0

abbrev hbmTy0_0 (i : Nat) : BufTy := match i % 128 with
  | 0 => ⟨S8192x8192, .f32⟩
  | 1 => ⟨S4x2048x1, .i1⟩
  | 2 => ⟨S4x2048x128, .f32⟩
  | 3 => ⟨S256, .f32⟩
  | 4 => ⟨S256, .f32⟩
  | 5 => ⟨S128x256, .f32⟩
  | 6 => ⟨S128, .f32⟩
  | 7 => ⟨S256, .f32⟩
  | 8 => ⟨S256, .f32⟩
  | 9 => ⟨S128x256, .f32⟩
  | 10 => ⟨S128, .f32⟩
  | 11 => ⟨S_, .f32⟩
  | 12 => ⟨S4x2048x128, .f32⟩
  | 13 => ⟨S4x2048x128, .i1⟩
  | 14 => ⟨S_, .f32⟩
  | 15 => ⟨S4x2048x128, .f32⟩
  | 16 => ⟨S4x2048x128, .i1⟩
  | 17 => ⟨S_, .f32⟩
  | 18 => ⟨S_, .f32⟩
  | 19 => ⟨S4x2048x128, .f32⟩
  | 20 => ⟨S4x2048x128, .f32⟩
  | 21 => ⟨S4x2048x128, .f32⟩
  | 22 => ⟨S_, .f32⟩
  | 23 => ⟨S4x2048x128, .f32⟩
  | 24 => ⟨S4x2048x128, .f32⟩
  | 25 => ⟨S4x2048x128, .f32⟩
  | 26 => ⟨S8192x128, .f32⟩
  | 27 => ⟨S8192x128, .f32⟩
  | 28 => ⟨S4x2048x128, .f32⟩
  | 29 => ⟨S4x2048x256, .f32⟩
  | 30 => ⟨S8192x256, .f32⟩
  | 31 => ⟨S_, .f32⟩
  | 32 => ⟨S256, .f32⟩
  | 33 => ⟨S_, .f32⟩
  | 34 => ⟨S256, .f32⟩
  | 35 => ⟨S256, .f32⟩
  | 36 => ⟨S_, .i32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S8192x256, .f32⟩
  | 44 => ⟨S8192x256, .f32⟩
  | 45 => ⟨S8192x256, .f32⟩
  | 46 => ⟨S_, .f32⟩
  | 47 => ⟨S_, .f32⟩
  | 48 => ⟨S_, .f32⟩
  | 49 => ⟨S_, .f32⟩
  | 50 => ⟨S256, .f32⟩
  | 51 => ⟨S256, .f32⟩
  | 52 => ⟨S256, .f32⟩
  | 53 => ⟨S_, .f32⟩
  | 54 => ⟨S_, .i1⟩
  | 55 => ⟨S_, .f32⟩
  | 56 => ⟨S_, .f32⟩
  | 57 => ⟨S256, .f32⟩
  | 58 => ⟨S256, .f32⟩
  | 59 => ⟨S1x256, .f32⟩
  | 60 => ⟨S8192x256, .f32⟩
  | 61 => ⟨S8192x256, .f32⟩
  | 62 => ⟨S_, .f32⟩
  | 63 => ⟨S256, .f32⟩
  | 64 => ⟨S256, .f32⟩
  | 65 => ⟨S256, .f32⟩
  | 66 => ⟨S1x256, .f32⟩
  | 67 => ⟨S8192x256, .f32⟩
  | 68 => ⟨S8192x256, .f32⟩
  | 69 => ⟨S1x256, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S256x128, .f32⟩
  | 76 => ⟨S8192x128, .f32⟩
  | 77 => ⟨S1x128, .f32⟩
  | 78 => ⟨S8192x128, .f32⟩
  | 79 => ⟨S8192x128, .f32⟩
  | 80 => ⟨S4x2048x128, .f32⟩
  | 81 => ⟨S_, .f32⟩
  | 82 => ⟨S4x2048x128, .f32⟩
  | 83 => ⟨S4x2048x128, .i1⟩
  | 84 => ⟨S_, .f32⟩
  | 85 => ⟨S4x2048x128, .f32⟩
  | 86 => ⟨S4x2048x128, .i1⟩
  | 87 => ⟨S_, .f32⟩
  | 88 => ⟨S_, .f32⟩
  | 89 => ⟨S4x2048x128, .f32⟩
  | 90 => ⟨S4x2048x128, .f32⟩
  | 91 => ⟨S4x2048x128, .f32⟩
  | 92 => ⟨S_, .f32⟩
  | 93 => ⟨S4x2048x128, .f32⟩
  | 94 => ⟨S4x2048x128, .f32⟩
  | 95 => ⟨S4x2048x128, .f32⟩
  | 96 => ⟨S8192x128, .f32⟩
  | 97 => ⟨S8192x128, .f32⟩
  | 98 => ⟨S4x2048x128, .f32⟩
  | 99 => ⟨S4x2048x256, .f32⟩
  | 100 => ⟨S8192x256, .f32⟩
  | 101 => ⟨S_, .f32⟩
  | 102 => ⟨S256, .f32⟩
  | 103 => ⟨S_, .f32⟩
  | 104 => ⟨S256, .f32⟩
  | 105 => ⟨S256, .f32⟩
  | 106 => ⟨S_, .i32⟩
  | 107 => ⟨S_, .f32⟩
  | 108 => ⟨S256, .f32⟩
  | 109 => ⟨S1x256, .f32⟩
  | 110 => ⟨S_, .f32⟩
  | 111 => ⟨S1x256, .f32⟩
  | 112 => ⟨S1x256, .f32⟩
  | 113 => ⟨S8192x256, .f32⟩
  | 114 => ⟨S8192x256, .f32⟩
  | 115 => ⟨S8192x256, .f32⟩
  | 116 => ⟨S_, .f32⟩
  | 117 => ⟨S_, .f32⟩
  | 118 => ⟨S_, .f32⟩
  | 119 => ⟨S_, .f32⟩
  | 120 => ⟨S256, .f32⟩
  | 121 => ⟨S256, .f32⟩
  | 122 => ⟨S256, .f32⟩
  | 123 => ⟨S_, .f32⟩
  | 124 => ⟨S_, .i1⟩
  | 125 => ⟨S_, .f32⟩
  | 126 => ⟨S_, .f32⟩
  | 127 => ⟨S256, .f32⟩
  | _ => ⟨S8192x8192, .f32⟩

abbrev hbmTy0_1 (i : Nat) : BufTy := match i % 128 with
  | 0 => ⟨S256, .f32⟩
  | 1 => ⟨S1x256, .f32⟩
  | 2 => ⟨S8192x256, .f32⟩
  | 3 => ⟨S8192x256, .f32⟩
  | 4 => ⟨S_, .f32⟩
  | 5 => ⟨S256, .f32⟩
  | 6 => ⟨S256, .f32⟩
  | 7 => ⟨S256, .f32⟩
  | 8 => ⟨S1x256, .f32⟩
  | 9 => ⟨S8192x256, .f32⟩
  | 10 => ⟨S8192x256, .f32⟩
  | 11 => ⟨S1x256, .f32⟩
  | 12 => ⟨S8192x256, .f32⟩
  | 13 => ⟨S8192x256, .f32⟩
  | 14 => ⟨S1x256, .f32⟩
  | 15 => ⟨S8192x256, .f32⟩
  | 16 => ⟨S8192x256, .f32⟩
  | 17 => ⟨S256x128, .f32⟩
  | 18 => ⟨S8192x128, .f32⟩
  | 19 => ⟨S1x128, .f32⟩
  | 20 => ⟨S8192x128, .f32⟩
  | 21 => ⟨S8192x128, .f32⟩
  | 22 => ⟨S4x2048x128, .f32⟩
  | 23 => ⟨S4x2048x128, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_cst_1 : Ref sig .tc := ⟨.hbm, 87, rfl⟩
abbrev main_call2_call0_v0 : Ref sig .tc := ⟨.hbm, 88, rfl⟩
abbrev main_call2_call0_v1 : Ref sig .tc := ⟨.hbm, 89, rfl⟩
abbrev main_call2_v4 : Ref sig .tc := ⟨.hbm, 90, rfl⟩
abbrev main_call2_v5 : Ref sig .tc := ⟨.hbm, 91, rfl⟩
abbrev main_call2_cst_2 : Ref sig .tc := ⟨.hbm, 92, rfl⟩
abbrev main_call2_v6 : Ref sig .tc := ⟨.hbm, 93, rfl⟩
abbrev main_call2_v7 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_2 : Ref sig .tc := ⟨.hbm, 101, rfl⟩
abbrev main_v37 : Ref sig .tc := ⟨.hbm, 102, rfl⟩
abbrev main_cst_3 : Ref sig .tc := ⟨.hbm, 103, rfl⟩
abbrev main_v38 : Ref sig .tc := ⟨.hbm, 104, rfl⟩
abbrev main_v39 : Ref sig .tc := ⟨.hbm, 105, rfl⟩
abbrev main_c_4 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_cst_3 : Ref sig .tc := ⟨.hbm, 123, rfl⟩
abbrev main_call3_v12 : Ref sig .tc := ⟨.hbm, 124, rfl⟩
abbrev main_call3_cst_4 : Ref sig .tc := ⟨.hbm, 125, rfl⟩
abbrev main_call3_call0_v0 : Ref sig .tc := ⟨.hbm, 126, rfl⟩
abbrev main_call3_call0_v1 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_cst_5 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩

abbrev nD : Nat := 1
abbrev τ : Topo := Topo.v7x

variable {F : FTy → Type} [FloatOps F]

class Facts₀ : Prop where
  bcast_S_S4x2048x128 : S_.BroadcastsInDim S4x2048x128 (![] : Fin 0 → Fin S4x2048x128.rank)
  shapeCasts_S4x2048x128_S8192x128 : S4x2048x128.ShapeCasts S8192x128
  shapeCasts_S8192x128_S4x2048x128 : S8192x128.ShapeCasts S4x2048x128
  concatenates_S4x2048x128_S4x2048x128_S4x2048x256_d2 : Shape.Concatenates [S4x2048x128, S4x2048x128] S4x2048x256 2
  shapeCasts_S4x2048x256_S8192x256 : S4x2048x256.ShapeCasts S8192x256
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.KerRun.lean ====
/-
  The kernel program's run with its final buffer contents named.

  The program is twelve segments in a row: host stretches and the two launches.  Each segment takes every buffer
  of the TensorCore from the contents at one boundary to the contents at the next, so the contents at the end are a
  twelve-fold composition from the launch memory: a host stretch applies its operations' fold, a launch leaves its
  arrays at what its write-backs produce and every other buffer as it was.  Every weakly fair execution terminates
  without a fault, and every final state holds each buffer at that composition; here the post keeps ALL buffers
  (the frame claim keeps only the arguments), so that the result buffer can be read off.
-/
import proofs.«117367_j3496103379445_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state holds each
    buffer that outlives a launch at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Run

end
-- ==== Proof.Spec.lean ====
/-
  The host side that both programs share, as functions of extended-real arrays.

  Each program applies the same two rounds to the activations x [4, 2048, 128]: the array is flattened to [8192, 128],
  multiplied from the left by L [8192, 8192] (the one step the two programs compute differently), and then x and L·x are
  joined along the features to h [8192, 256], each of the 256 columns is normalised over the 8192 rows (mean and biased
  variance of the column, (h − mean) · rsqrt(var + ε) · γ + β), and a linear layer h · wᵀ + bias brings the 256 features
  back to 128; an ELU precedes each round and the input is added back at the end.  `elu` is the activation,
  `flat` the flattening, and `block x lx γ β w bias` everything of one round after the product lx = L · flat x.
  `lap` is that product as the host computes it and `result` the whole composition.
  Both programs' runs are read back as compositions of these functions, so that the two results differ only in how
  lx is computed; nothing inside the functions is ever opened.
-/
import proofs.«117367_j3496103379445_1_alg».proof.Proof.Gen.KernelIdeal
import Idealize.ShloMosaic.PureOps.Ideal

noncomputable section

namespace Cert.Chain

open Idealize.ShloMosaic Cert.KernelIdeal Cert.KernelIdeal.Gen

/-- ELU, element by element: x where x > 0, and 1 · expm1 (x where x ≤ 0, else 0) elsewhere. -/
def elu (x : FVec Ideal S4x2048x128 .f32) : FVec Ideal S4x2048x128 .f32 :=
  (select ((cmpf .ogt) x ((broadcastInDim S4x2048x128 ![] bcast_S_S4x2048x128) ((constant (F := Ideal) S_ .f32 0x00000000#32)))) x (mulf ((broadcastInDim S4x2048x128 ![] bcast_S_S4x2048x128) ((constant (F := Ideal) S_ .f32 0x3F800000#32))) ((Host.expm1 (F := Ideal)) (select ((cmpf .ogt) x ((broadcastInDim S4x2048x128 ![] bcast_S_S4x2048x128) ((constant (F := Ideal) S_ .f32 0x00000000#32)))) ((broadcastInDim S4x2048x128 ![] bcast_S_S4x2048x128) (id ((constant (F := Ideal) S_ .f32 0x00000000#32)))) x))))

/-- The activations [4, 2048, 128] as the matrix [8192, 128] that L multiplies. -/
def flat (x : FVec Ideal S4x2048x128 .f32) : FVec Ideal S8192x128 .f32 :=
  shapeCast S8192x128 x shapeCasts_S4x2048x128_S8192x128

/-- One round after the product: h = [x | lx] by rows, the column-wise normalisation with scale g and shift b, then
    the linear layer with weights w [128, 256] and bias, back in the shape [4, 2048, 128]. -/
def block (x : FVec Ideal S4x2048x128 .f32) (lx : FVec Ideal S8192x128 .f32) (g b : FVec Ideal S256 .f32)
    (w : FVec Ideal S128x256 .f32) (bias : FVec Ideal S128 .f32) : FVec Ideal S4x2048x128 .f32 :=
  (shapeCast S4x2048x128 (addf ((fun l r => Host.dotGeneral (F := Ideal) dot_S8192x256_S256x128_S8192x128_1_0_0_1_n_n none l r) (addf (mulf (mulf (subf (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((broadcastInDim S8192x256 ![0, 1] bcast_S1x256_S8192x256_0_1) ((broadcastInDim S1x256 ![1] bcast_S256_S1x256_1) (Host.divf (F := Ideal) ((fun x v => Host.reduceAdd (F := Ideal) x v reducesTo_S8192x256_S256_d0 h_S_) (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((constant (F := Ideal) S_ .f32 0x00000000#32))) ((broadcastInDim S256 ![] bcast_S_S256) ((constant (F := Ideal) S_ .f32 0x46000000#32))))))) ((broadcastInDim S8192x256 ![0, 1] bcast_S1x256_S8192x256_0_1) ((broadcastInDim S1x256 ![1] bcast_S256_S1x256_1) (Host.rsqrt (F := Ideal) (addf ((fun p a b => select (broadcastInDim S256 ![] bcast_S_S256 p) a b) ((cmpf .ogt) (subf ((constant (F := Ideal) S_ .f32 0x46000000#32)) ((sitofp .f32) ((constantI S_ 32 0#32)))) ((constant (F := Ideal) S_ .f32 0x00000000#32))) (Host.divf (F := Ideal) ((fun x v => Host.reduceAdd (F := Ideal) x v reducesTo_S8192x256_S256_d0 h_S_) (mulf (subf (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((broadcastInDim S8192x256 ![0, 1] bcast_S1x256_S8192x256_0_1) (Host.divf (F := Ideal) ((broadcastInDim S1x256 ![1] bcast_S256_S1x256_1) ((fun x v => Host.reduceAdd (F := Ideal) x v reducesTo_S8192x256_S256_d0 h_S_) (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((constant (F := Ideal) S_ .f32 0x00000000#32)))) ((broadcastInDim S1x256 ![] bcast_S_S1x256) ((constant (F := Ideal) S_ .f32 0x46000000#32)))))) (subf (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((broadcastInDim S8192x256 ![0, 1] bcast_S1x256_S8192x256_0_1) (Host.divf (F := Ideal) ((broadcastInDim S1x256 ![1] bcast_S256_S1x256_1) ((fun x v => Host.reduceAdd (F := Ideal) x v reducesTo_S8192x256_S256_d0 h_S_) (shapeCast S8192x256 ((fun a b => concatenate S4x2048x256 2 [⟨S4x2048x128, a⟩, ⟨S4x2048x128, b⟩] concatenates_S4x2048x128_S4x2048x128_S4x2048x256_d2) x (shapeCast S4x2048x128 lx shapeCasts_S8192x128_S4x2048x128)) shapeCasts_S4x2048x256_S8192x256) ((constant (F := Ideal) S_ .f32 0x00000000#32)))) ((broadcastInDim S1x256 ![] bcast_S_S1x256) ((constant (F := Ideal) S_ .f32 0x46000000#32))))))) ((constant (F := Ideal) S_ .f32 0x00000000#32))) ((broadcastInDim S256 ![] bcast_S_S256) (subf ((constant (F := Ideal) S_ .f32 0x46000000#32)) ((sitofp .f32) ((constantI S_ 32 0#32)))))) ((broadcastInDim S256 ![] bcast_S_S256) (id ((constant (F := Ideal) S_ .f32 0x7FC00000#32))))) ((broadcastInDim S256 ![] bcast_S_S256) ((constant (F := Ideal) S_ .f32 0x3727C5AC#32)))))))) ((broadcastInDim S8192x256 ![0, 1] bcast_S1x256_S8192x256_0_1) ((broadcastInDim S1x256 ![1] bcast_S256_S1x256_1) g))) ((broadcastInDim S8192x256 ![0, 1] bcast_S1x256_S8192x256_0_1) ((broadcastInDim S1x256 ![1] bcast_S256_S1x256_1) b))) ((transpose S256x128 [1, 0] · transposes_S128x256_S256x128_1_0) w)) ((broadcastInDim S8192x128 ![0, 1] bcast_S1x128_S8192x128_0_1) ((broadcastInDim S1x128 ![1] bcast_S128_S1x128_1) bias))) shapeCasts_S8192x128_S4x2048x128)

/-- The product with L: the host's plain matrix product, rows × contraction by contraction × columns. -/
def lap (L : FVec Ideal S8192x8192 .f32) (x : FVec Ideal S8192x128 .f32) : FVec Ideal S8192x128 .f32 :=
  Host.dotGeneral (F := Ideal) (DotDims.plain 8192 8192 128) none L x

/-- The whole computation: activation, round with (g0, b0, w0, c0), activation, round with (g1, b1, w1, c1), and the
    input added back. -/
def result (L : FVec Ideal S8192x8192 .f32) (inp : FVec Ideal S4x2048x128 .f32)
    (g0 b0 : FVec Ideal S256 .f32) (w0 : FVec Ideal S128x256 .f32) (c0 : FVec Ideal S128 .f32)
    (g1 b1 : FVec Ideal S256 .f32) (w1 : FVec Ideal S128x256 .f32) (c1 : FVec Ideal S128 .f32) :
    FVec Ideal S4x2048x128 .f32 :=
  addf (block (elu (block (elu inp) (lap L (flat (elu inp))) g0 b0 w0 c0))
      (lap L (flat (elu (block (elu inp) (lap L (flat (elu inp))) g0 b0 w0 c0)))) g1 b1 w1 c1) inp

end Cert.Chain

end
-- ==== Proof.KerHost.lean ====
/-
  The kernel program's host stretches read back as the shared functions.

  Between its two launches the idealized kernel program runs the same host operations as the reference.  From ANY
  buffer contents X, each stretch leaves in its result buffer the corresponding function of what X holds in the
  stretch's input buffers — the activation of the input, its flattening, one whole round after the first product,
  the activation and flattening before the second product, and the second round with the input added back — and
  leaves alone the buffers it does not write (the arguments, and the activations a later stretch reads again).
-/
import proofs.«117367_j3496103379445_1_alg».proof.Proof.Spec
import proofs.«117367_j3496103379445_1_alg».proof.Proof.Gen.KernelIdeal.Launch
import Idealize.ShloMosaic.Lib.StableHlo.Run

noncomputable section

namespace Cert.KernelIdeal.Host

open Idealize.ShloMosaic Idealize.ShloMosaic.TcCoe Idealize.SL.Sem Idealize.ShloMosaic.StableHlo
open Cert.KernelIdeal Cert.KernelIdeal.Gen Cert.Chain

variable (X : Valuation τ sig (Elt Ideal))

/-! ## Before the first launch -/

/-- The first stretch leaves the activation of the input in the buffer the first launch and the first round read. -/
theorem act0 : after (hostOps0 (F := Ideal)) X (Proc.devRef .tc main_v0) = elu (X (Proc.devRef .tc main_arg2)) := by
  after_results_simp
  rfl

/-- Its flattening is the right operand of the first product. -/
theorem flat0 : after (hostOps0_1 (F := Ideal)) X (Proc.devRef .tc main_v1) = flat (X (Proc.devRef .tc main_v0)) := by
  after_results_simp
  rfl

/-- The two stretches before the first launch write none of the arguments; -/
theorem keep0 (b : Ref sig .tc) (hb : b ∈ ([main_arg0, main_arg2, main_arg3, main_arg4, main_arg5, main_arg6, main_arg7, main_arg8, main_arg9, main_arg10] : List (Ref sig .tc))) :
    after (hostOps0_1 (F := Ideal)) (after hostOps0 X) (Proc.devRef .tc b) = X (Proc.devRef .tc b) := by
  simp only [List.mem_cons, List.mem_singleton, List.not_mem_nil, or_false] at hb
  rcases hb with rfl | rfl | rfl | rfl | rfl | rfl | rfl | rfl | rfl | rfl <;> after_results_simp

/-- and the flattening does not touch the activation. -/
theorem keep0_v0 : after (hostOps0_1 (F := Ideal)) X (Proc.devRef .tc main_v0) = X (Proc.devRef .tc main_v0) := by
  after_results_simp

/-! ## Between the launches -/

/-- The first round: from the activation and the first product, with the first layer's parameters. -/
theorem round0 : after (hostOps1_2 (F := Ideal)) (after hostOps1_1 (after hostOps1 X)) (Proc.devRef .tc main_v30)
    = block (X (Proc.devRef .tc main_v0)) (X (Proc.devRef .tc main_v2)) (X (Proc.devRef .tc main_arg3))
        (X (Proc.devRef .tc main_arg4)) (X (Proc.devRef .tc main_arg5)) (X (Proc.devRef .tc main_arg6)) := by
  after_results_simp
  rfl

/-- The second activation. -/
theorem act1 : after (hostOps1_3 (F := Ideal)) X (Proc.devRef .tc main_v31) = elu (X (Proc.devRef .tc main_v30)) := by
  after_results_simp
  rfl

/-- Its flattening is the right operand of the second product. -/
theorem flat1 : after (hostOps1_4 (F := Ideal)) X (Proc.devRef .tc main_v32) = flat (X (Proc.devRef .tc main_v31)) := by
  after_results_simp
  rfl

/-- The flattening does not touch the second activation. -/
theorem keep1_v31 : after (hostOps1_4 (F := Ideal)) X (Proc.devRef .tc main_v31) = X (Proc.devRef .tc main_v31) := by
  after_results_simp

/-- The five stretches between the launches write none of the arguments the rest of the program reads. -/
theorem keep1 (b : Ref sig .tc) (hb : b ∈ ([main_arg0, main_arg2, main_arg7, main_arg8, main_arg9, main_arg10] : List (Ref sig .tc))) :
    after (hostOps1_4 (F := Ideal)) (after hostOps1_3 (after hostOps1_2 (after hostOps1_1 (after hostOps1 X)))) (Proc.devRef .tc b) = X (Proc.devRef .tc b) := by
  simp only [List.mem_cons, List.mem_singleton, List.not_mem_nil, or_false] at hb
  rcases hb with rfl | rfl | rfl | rfl | rfl | rfl <;> after_results_simp

/-! ## After the second launch -/

/-- The second round, with the second layer's parameters, and the input added back. -/
theorem round1 : after (hostOps2_2 (F := Ideal)) (after hostOps2_1 (after hostOps2 X)) (Proc.devRef .tc main_v62)
    = addf (block (X (Proc.devRef .tc main_v31)) (X (Proc.devRef .tc main_v33)) (X (Proc.devRef .tc main_arg7))
        (X (Proc.devRef .tc main_arg8)) (X (Proc.devRef .tc main_arg9)) (X (Proc.devRef .tc main_arg10)))
        (X (Proc.devRef .tc main_arg2)) := by
  after_results_simp
  rfl

end Cert.KernelIdeal.Host

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibHostDot.lean ====
/-
  A plain host matrix product read at an index, generic in the three extents.

  For the dimension numbers "rows × contraction times contraction × columns" (`DotDims.plain M K N`: no
  batch axis, the left operand contracted on its last axis, the right on its first), at the ideal values —
  floats extended reals, every operation exact — the host program's `dot_general`, read at the output index
  (r, c), is the plain sum over k of lhs (r, k) · rhs (k, c): it has no accumulator, and no rounding and no
  summation order is left in it.  The contraction index, a one-axis multi-index, is re-indexed by its one
  coordinate, as for the kernel-side product into a zero accumulator (`Cert.Lib.PlainDot`).
-/
import proofs.«117367_j3496103379445_1_alg».proof.Proof.LibPlainDot

noncomputable section

namespace Cert.Lib.HostDot

open Idealize.ShloMosaic Idealize.ShloMosaic.ValueIdx

variable {M K N : Nat}

/-- A plain host `dot_general`, at the ideal values, read at (r, c): the sum over k of lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [Cert.Lib.PlainDot.lhsIdx_plain, Cert.Lib.PlainDot.rhsIdx_plain]

end Cert.Lib.HostDot

end
-- ==== Proof.KerRegion0.lean ====
/-
  What launch 0 leaves in its result array: the whole product L · x.

  The launch walks a grid of 8 row blocks by 4 contraction blocks.  At the point (i, q) the body holds the block
  L[1024 i : 1024 i + 1024, 2048 q : 2048 q + 2048] and the block x[2048 q : 2048 q + 2048, :]; at q = 0 it first
  zeroes the output block, and at every point it adds the product of the two blocks to the output block, which is
  written back after q = 3.  Read at a row r of the block and a column j, the output block after the point (i, q)
  is therefore the partial sum over the first 2048 (q + 1) contraction indices of L (1024 i + r, k) · x (k, j) —
  an induction on the point — and after q = 3 it is the whole sum over 8192 indices, the entry of L · x.  Sums of
  extended reals are regrouped by associativity and commutativity only, so nothing is asked of the entries.
-/
import proofs.«117367_j3496103379445_1_alg».proof.Proof.Gen.KernelIdeal.Frame
import proofs.«117367_j3496103379445_1_alg».proof.Proof.Spec
import proofs.«117367_j3496103379445_1_alg».proof.Proof.LibPlainDot
import proofs.«117367_j3496103379445_1_alg».proof.Proof.LibHostDot
import Idealize.ShloMosaic.Lib.Pipeline.Value
import Idealize.ShloMosaic.Lib.ValueIdx
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

section Pieces

variable {F : FTy → Type} [FloatOps F]

/-- Away from the first contraction block the body leaves, in the output's staging buffer holding xo, its one
    store's payload: xo plus the product of the two input blocks. -/
theorem out_B (c : Dev nD) (i : grid0.Coords) (a2 : Memref sig .tc .vmem S1024x2048 .f32) (h2 : a2.IsWhole)
    (a3 : Memref sig .tc .vmem S2048x128 .f32) (h3 : a3.IsWhole) (a4 : Memref sig .tc .vmem S1024x128 .f32) (h4 : a4.IsWhole)
    (hc : ¬cond0_0 i) (x0 : Vec F S1024x2048 .f32) (x1 : Vec F S2048x128 .f32) (xo : Vec F S1024x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S1024x2048) hz,
    View.ld_unit_zero (S := S2048x128) hz, View.ld_unit_zero (S := S1024x128) hz]

/-- At the first contraction block the body stores the zero block, reads it back, and leaves the zero block plus
    the product of the two input blocks. -/
theorem out_A (c : Dev nD) (i : grid0.Coords) (a2 : Memref sig .tc .vmem S1024x2048 .f32) (h2 : a2.IsWhole)
    (a3 : Memref sig .tc .vmem S2048x128 .f32) (h3 : a3.IsWhole) (a4 : Memref sig .tc .vmem S1024x128 .f32) (h4 : a4.IsWhole)
    (hc : cond0_0 i) (x0 : Vec F S1024x2048 .f32) (x1 : Vec F S2048x128 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz,
    View.ld_unit_zero (S := S2048x128) hz, View.ld_unit_zero (S := S1024x128) hz]

end Pieces

/-! ## The payloads read at an entry, over the extended reals -/

/-- Every entry of the zeroed block is 0. -/
theorem pay1_apply (y : S1024x128.Idx) : (k0_pay1 (F := Ideal) y : EReal) = 0 := by
  show Ideal.ofBits .f32 0x00000000#32 = 0
  exact Ideal.ofBits_zero_f32

/-- The accumulating store's value at (r, j): the old entry plus the sum over the block's 2048 contraction indices
    (rounding the operands to a narrower format changes nothing, and the matrix unit starts from zero). -/
theorem pay2_apply (x0 : Vec Ideal S1024x2048 .f32) (x1 : Vec Ideal S2048x128 .f32) (acc : Vec Ideal S1024x128 .f32)
    (r : Fin 1024) (j : Fin 128) :
    (k0_pay2 (F := Ideal) x0 x1 acc (ix2 r j) : EReal)
      = acc (ix2 r j) + ∑ k : Fin 2048, (x0 (ix2 r k) : EReal) * x1 (ix2 k j) := by
  unfold k0_pay2
  show (shapeCast S1024x128 acc shapeCasts_S1024x128_S1024x128 (ix2 r j) : EReal)
      + matmul (DotDims.plain 1024 2048 128) none (truncf .bf16 x0 bitsLt_bf16_f32)
          (truncf .bf16 (shapeCast S2048x128 x1 shapeCasts_S2048x128_S2048x128) bitsLt_bf16_f32)
          (constant (F := Ideal) ⟨2, ![1024, 128]⟩ .f32 0x00000000#32) (ix2 r j) = _
  rw [Cert.Lib.PlainDot.matmul_plain_zero_apply, shapeCast_self, shapeCast_self]
  rfl

/-! ## The blocks, read in the whole arrays -/

/-- The printed index maps over the grid: point t is row block t / 4 and contraction block t % 4. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

section Values

variable (V : (c : Dev nD) → (b : Ref sig .tc) → Buf (Elt Ideal) ((c : Thread nD τ).loc b))

/-- L's block at point t, at (r, k): L at row 1024 (t / 4) + r and column 2048 (t % 4) + k. -/
theorem blk0_apply (c : Dev nD) (t : Fin cfg0.N) (r : Fin 1024) (k : Fin 2048) (R K : Fin 8192)
    (hR : R.val = 1024 * (t.val / 4) + r.val) (hK : K.val = 2048 * (t.val % 4) + k.val) :
    (iblk0 V c 0 t : Vec Ideal S1024x2048 .f32) (ix2 r k) = V c main_arg0 (ix2 R K) := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 2048 + 1 * k.val = K.val; rw [e1, hK]; omega

/-- x's block at point t, at (k, j): x at row 2048 (t % 4) + k and column j. -/
theorem blk1_apply (c : Dev nD) (t : Fin cfg0.N) (k : Fin 2048) (j : Fin 128) (K : Fin 8192)
    (hK : K.val = 2048 * (t.val % 4) + k.val) :
    (iblk0 V c 1 t : Vec Ideal S2048x128 .f32) (ix2 k j) = V c main_v1 (ix2 K j) := by
  obtain ⟨-, -, e2, e3, -, -⟩ := idx_facts t
  unfold iblk0
  rw [View.read_apply]
  show V c main_v1 _ = V c main_v1 _
  refine congrArg _ (funext fun a => Fin.ext ?_)
  match a with
  | ⟨0, _⟩ => show win0_1.index t (0 : Fin 2) * 2048 + 1 * k.val = K.val; rw [e2, hK]; omega
  | ⟨1, _⟩ => show win0_1.index t (1 : Fin 2) * 128 + 1 * j.val = j.val; rw [e3]; omega

/-! ## The running sum -/

/-- The k-th term of the entry (R, j) of L · x, as a function of a natural index (0 past the extent). -/
def term (L : FVec Ideal S8192x8192 .f32) (x : FVec Ideal S8192x128 .f32) (R : Fin 8192) (j : Fin 128) (k : ℕ) : EReal :=
  if h : k < 8192 then (L (ix2 R ⟨k, h⟩) : EReal) * x (ix2 ⟨k, h⟩ j) else 0

/-- Adding one contraction block's 2048 terms to the sum of the first 2048 q terms gives the first 2048 (q + 1). -/
theorem step (f : ℕ → EReal) (q : ℕ) (acc : EReal) (hacc : acc = ∑ k ∈ Finset.range (2048 * q), f k)
    (blk : Fin 2048 → EReal) (hblk : ∀ k : Fin 2048, blk k = f (2048 * q + k.val)) :
    acc + ∑ k : Fin 2048, blk k = ∑ k ∈ Finset.range (2048 * (q + 1)), f k := by
  have e : ∑ k : Fin 2048, blk k = ∑ k ∈ Finset.range 2048, f (2048 * q + k) := by
    rw [Finset.sum_range]; exact Finset.sum_congr rfl fun k _ => hblk k
  rw [e, hacc, Nat.mul_add_one, Finset.sum_range_add]

/-- The product of the two blocks' entries at point t is the term at the block's place in the whole contraction. -/
theorem blk_term (c : Dev nD) (t : Fin cfg0.N) (r : Fin 1024) (j : Fin 128) (R : Fin 8192)
    (hR : R.val = 1024 * (t.val / 4) + r.val) (k : Fin 2048)
    (b0 : Vec Ideal S1024x2048 .f32) (b1 : Vec Ideal S2048x128 .f32) (hb0 : b0 = iblk0 V c 0 t) (hb1 : b1 = iblk0 V c 1 t) :
    (b0 (ix2 r k) : EReal) * b1 (ix2 k j)
      = term (V c main_arg0) (V c main_v1) R j (2048 * (t.val % 4) + k.val) := by
  have hk : 2048 * (t.val % 4) + k.val < 8192 := by have := k.isLt; omega
  subst hb0 hb1
  unfold term
  rw [dif_pos hk, blk0_apply V c t r k R ⟨_, hk⟩ hR rfl, blk1_apply V c t k j ⟨_, hk⟩ rfl]

/-- After the point n the output block holds, at (r, j), the sum of the first 2048 (n % 4 + 1) terms of the entry
    (1024 (n / 4) + r, j) of L · x: by induction on the point. -/
theorem outsAt_apply (c : Dev nD) : ∀ (n : ℕ) (h : n < cfg0.N) (r : Fin 1024) (j : Fin 128) (R : Fin 8192),
    R.val = 1024 * (n / 4) + r.val →
    ((outsAt0 V c n h : Vec Ideal S1024x128 .f32) (ix2 r j) : EReal)
      = ∑ k ∈ Finset.range (2048 * (n % 4 + 1)), term (V c main_arg0) (V c main_v1) R j k
  | 0, h, r, j, R, hR => by
    rw [outsAt0_A V c ⟨0, h⟩ rfl, out_A, pay2_apply, pay1_apply]
    exact step _ 0 0 (by simp) _ (fun k => blk_term V c ⟨0, h⟩ r j R hR k _ _ rfl rfl)
  | n + 1, h, r, j, R, hR => by
    have hN : cfg0.N = 32 := N_0
    by_cases h0 : (n + 1) % 4 = 0
    · rw [outsAt0_A V c ⟨n + 1, h⟩ h0, out_A, pay2_apply, pay1_apply, h0]
      exact step _ 0 0 (by simp) _ (fun k => by
        have := blk_term V c ⟨n + 1, h⟩ r j R hR k _ _ rfl rfl
        rw [show (⟨n + 1, h⟩ : Fin cfg0.N).val % 4 = 0 from h0] at this
        exact this)
    · rw [outsAt0_B V c ⟨n + 1, h⟩ h0, out_B, pay2_apply]
      have ih := outsAt_apply c n (Nat.lt_of_succ_lt h) r j R (by omega)
      have hq : (n + 1) % 4 = n % 4 + 1 := by omega
      rw [hq]
      refine step _ (n % 4 + 1) _ ih _ (fun k => ?_)
      have := blk_term V c ⟨n + 1, h⟩ r j R hR k _ _ rfl rfl
      rw [show (⟨n + 1, h⟩ : Fin cfg0.N).val % 4 = n % 4 + 1 from hq] at this
      exact this

/-- All 8192 terms are the entry of the host's product. -/
theorem full_sum (L : FVec Ideal S8192x8192 .f32) (x : FVec Ideal S8192x128 .f32) (R : Fin 8192) (j : Fin 128) :
    ∑ k ∈ Finset.range 8192, term L x R j k = Cert.Chain.lap L x (ix2 R j) := by
  unfold Cert.Chain.lap
  rw [Cert.Lib.HostDot.dotGeneral_plain_apply, Finset.sum_range]
  exact Finset.sum_congr rfl fun k _ => by unfold term; rw [dif_pos k.isLt]

/-! ## From the blocks to the array -/

/-- What a point at the last contraction block writes back is its row block of L · x. -/
theorem flushed_eq (c : Dev nD) (t : Fin cfg0.N) (hf : (cfg0.win 2).flush t = true) :
    (dat0 V c).flushed 2 t
      = ((cfg0.win 2).blk t).view.read (Elt Ideal) (Cert.Chain.lap (V c main_arg0) (V c main_v1)) := by
  have hN : cfg0.N = 32 := N_0
  have ht : t.val < 32 := hN ▸ t.isLt
  have h3 : t.val % 4 = 3 := (flush0_2 t).mp hf
  obtain ⟨-, -, -, -, e4, e5⟩ := idx_facts t
  show (cfg0.win 2).cut (grid0.coords t) ((dat0 V c).after 2 t) = _
  rw [after0_2]
  funext y
  obtain ⟨r, j, rfl⟩ : ∃ (r : Fin 1024) (j : Fin 128), y = ix2 r j := ⟨y 0, y 1, eq_ix2 y⟩
  rw [View.read_apply]
  have hR : 1024 * (t.val / 4) + r.val < 8192 := by have := r.isLt; omega
  have hemb : ((cfg0.win 2).blk t).view.emb (ix2 r j) = ix2 (⟨_, hR⟩ : Fin 8192) j :=
    funext fun a => Fin.ext (by
      match a with
      | ⟨0, _⟩ => show win0_2.index t (0 : Fin 2) * 1024 + 1 * r.val = 1024 * (t.val / 4) + r.val; rw [e4]; omega
      | ⟨1, _⟩ => show win0_2.index t (1 : Fin 2) * 128 + 1 * j.val = j.val; rw [e5]; omega)
  rw [hemb]
  show ((outsAt0 V c t.val t.isLt : Vec Ideal S1024x128 .f32) (ix2 r j) : EReal) = _
  exact ((outsAt_apply V c t.val t.isLt r j ⟨_, hR⟩ rfl).trans (by rw [h3])).trans
    (full_sum (V c main_arg0) (V c main_v1) ⟨_, hR⟩ j)

/-- Every entry of the result array lies in the block some point at the last contraction block writes back. -/
theorem cover (i : S8192x128.Idx) :
    ∃ t : Fin cfg0.N, (cfg0.win 2).flush t = true ∧ i ∈ ((cfg0.win 2).blk t).view.set := by
  have hN : cfg0.N = 32 := N_0
  have h0 : (i 0).val < 8192 := (i 0).isLt
  have h1 : (i 1).val < 128 := (i 1).isLt
  obtain ⟨t, ht⟩ : ∃ t : Fin cfg0.N, t.val = 4 * ((i 0).val / 1024) + 3 := ⟨⟨_, by rw [hN]; omega⟩, rfl⟩
  obtain ⟨-, -, -, -, e4, e5⟩ := idx_facts t
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 128 ≤ (i 1).val ∧ (i 1).val < win0_2.index t (1 : Fin 2) * 128 + 128
    rw [e5]; omega

/-- The result array after the launch is L · x of the arrays the launch found. -/
theorem final (c : Dev nD) : (dat0 V c).arrAt 2 cfg0.N = Cert.Chain.lap (V c main_arg0) (V c main_v1) :=
  (dat0 V c).arrAt_eq_of_cover 2 _ (flushed_eq V c) cover

end Values

end Cert.KernelIdeal.Region0

end
-- ==== Proof.KerRegion1.lean ====
/-
  What launch 1 leaves in its result array: the whole product L · x.

  The launch walks a grid of 8 row blocks by 4 contraction blocks.  At the point (i, q) the body holds the block
  L[1024 i : 1024 i + 1024, 2048 q : 2048 q + 2048] and the block x[2048 q : 2048 q + 2048, :]; at q = 0 it first
  zeroes the output block, and at every point it adds the product of the two blocks to the output block, which is
  written back after q = 3.  Read at a row r of the block and a column j, the output block after the point (i, q)
  is therefore the partial sum over the first 2048 (q + 1) contraction indices of L (1024 i + r, k) · x (k, j) —
  an induction on the point — and after q = 3 it is the whole sum over 8192 indices, the entry of L · x.  Sums of
  extended reals are regrouped by associativity and commutativity only, so nothing is asked of the entries.
-/
import proofs.«117367_j3496103379445_1_alg».proof.Proof.Gen.KernelIdeal.Frame
import proofs.«117367_j3496103379445_1_alg».proof.Proof.Spec
import proofs.«117367_j3496103379445_1_alg».proof.Proof.LibPlainDot
import proofs.«117367_j3496103379445_1_alg».proof.Proof.LibHostDot
import Idealize.ShloMosaic.Lib.Pipeline.Value
import Idealize.ShloMosaic.Lib.ValueIdx
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

section Pieces

variable {F : FTy → Type} [FloatOps F]

/-- Away from the first contraction block the body leaves, in the output's staging buffer holding xo, its one
    store's payload: xo plus the product of the two input blocks. -/
theorem out_B (c : Dev nD) (i : grid1.Coords) (a2 : Memref sig .tc .vmem S1024x2048 .f32) (h2 : a2.IsWhole)
    (a3 : Memref sig .tc .vmem S2048x128 .f32) (h3 : a3.IsWhole) (a4 : Memref sig .tc .vmem S1024x128 .f32) (h4 : a4.IsWhole)
    (hc : ¬cond1_0 i) (x0 : Vec F S1024x2048 .f32) (x1 : Vec F S2048x128 .f32) (xo : Vec F S1024x128 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S1024x2048) hz,
    View.ld_unit_zero (S := S2048x128) hz, View.ld_unit_zero (S := S1024x128) hz]

/-- At the first contraction block the body stores the zero block, reads it back, and leaves the zero block plus
    the product of the two input blocks. -/
theorem out_A (c : Dev nD) (i : grid1.Coords) (a2 : Memref sig .tc .vmem S1024x2048 .f32) (h2 : a2.IsWhole)
    (a3 : Memref sig .tc .vmem S2048x128 .f32) (h3 : a3.IsWhole) (a4 : Memref sig .tc .vmem S1024x128 .f32) (h4 : a4.IsWhole)
    (hc : cond1_0 i) (x0 : Vec F S1024x2048 .f32) (x1 : Vec F S2048x128 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz,
    View.ld_unit_zero (S := S2048x128) hz, View.ld_unit_zero (S := S1024x128) hz]

end Pieces

/-! ## The payloads read at an entry, over the extended reals -/

/-- Every entry of the zeroed block is 0. -/
theorem pay1_apply (y : S1024x128.Idx) : (k1_pay1 (F := Ideal) y : EReal) = 0 := by
  show Ideal.ofBits .f32 0x00000000#32 = 0
  exact Ideal.ofBits_zero_f32

/-- The accumulating store's value at (r, j): the old entry plus the sum over the block's 2048 contraction indices
    (rounding the operands to a narrower format changes nothing, and the matrix unit starts from zero). -/
theorem pay2_apply (x0 : Vec Ideal S1024x2048 .f32) (x1 : Vec Ideal S2048x128 .f32) (acc : Vec Ideal S1024x128 .f32)
    (r : Fin 1024) (j : Fin 128) :
    (k1_pay2 (F := Ideal) x0 x1 acc (ix2 r j) : EReal)
      = acc (ix2 r j) + ∑ k : Fin 2048, (x0 (ix2 r k) : EReal) * x1 (ix2 k j) := by
  unfold k1_pay2
  show (shapeCast S1024x128 acc shapeCasts_S1024x128_S1024x128 (ix2 r j) : EReal)
      + matmul (DotDims.plain 1024 2048 128) none (truncf .bf16 x0 bitsLt_bf16_f32)
          (truncf .bf16 (shapeCast S2048x128 x1 shapeCasts_S2048x128_S2048x128) bitsLt_bf16_f32)
          (constant (F := Ideal) ⟨2, ![1024, 128]⟩ .f32 0x00000000#32) (ix2 r j) = _
  rw [Cert.Lib.PlainDot.matmul_plain_zero_apply, shapeCast_self, shapeCast_self]
  rfl

/-! ## The blocks, read in the whole arrays -/

/-- The printed index maps over the grid: point t is row block t / 4 and contraction block t % 4. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

section Values

variable (V : (c : Dev nD) → (b : Ref sig .tc) → Buf (Elt Ideal) ((c : Thread nD τ).loc b))

/-- L's block at point t, at (r, k): L at row 1024 (t / 4) + r and column 2048 (t % 4) + k. -/
theorem blk0_apply (c : Dev nD) (t : Fin cfg1.N) (r : Fin 1024) (k : Fin 2048) (R K : Fin 8192)
    (hR : R.val = 1024 * (t.val / 4) + r.val) (hK : K.val = 2048 * (t.val % 4) + k.val) :
    (iblk1 V c 0 t : Vec Ideal S1024x2048 .f32) (ix2 r k) = V c main_arg0 (ix2 R K) := by
  obtain ⟨e0, e1, -, -, -, -⟩ := idx_facts t
  unfold iblk1
  rw [View.read_apply]
  show V c main_arg0 _ = V c main_arg0 _
  refine congrArg _ (funext fun a => Fin.ext ?_)
  match a with
  | ⟨0, _⟩ => show win1_0.index t (0 : Fin 2) * 1024 + 1 * r.val = R.val; rw [e0, hR]; omega
  | ⟨1, _⟩ => show win1_0.index t (1 : Fin 2) * 2048 + 1 * k.val = K.val; rw [e1, hK]; omega

/-- x's block at point t, at (k, j): x at row 2048 (t % 4) + k and column j. -/
theorem blk1_apply (c : Dev nD) (t : Fin cfg1.N) (k : Fin 2048) (j : Fin 128) (K : Fin 8192)
    (hK : K.val = 2048 * (t.val % 4) + k.val) :
    (iblk1 V c 1 t : Vec Ideal S2048x128 .f32) (ix2 k j) = V c main_v32 (ix2 K j) := by
  obtain ⟨-, -, e2, e3, -, -⟩ := idx_facts t
  unfold iblk1
  rw [View.read_apply]
  show V c main_v32 _ = V c main_v32 _
  refine congrArg _ (funext fun a => Fin.ext ?_)
  match a with
  | ⟨0, _⟩ => show win1_1.index t (0 : Fin 2) * 2048 + 1 * k.val = K.val; rw [e2, hK]; omega
  | ⟨1, _⟩ => show win1_1.index t (1 : Fin 2) * 128 + 1 * j.val = j.val; rw [e3]; omega

/-! ## The running sum -/

/-- The k-th term of the entry (R, j) of L · x, as a function of a natural index (0 past the extent). -/
def term (L : FVec Ideal S8192x8192 .f32) (x : FVec Ideal S8192x128 .f32) (R : Fin 8192) (j : Fin 128) (k : ℕ) : EReal :=
  if h : k < 8192 then (L (ix2 R ⟨k, h⟩) : EReal) * x (ix2 ⟨k, h⟩ j) else 0

/-- Adding one contraction block's 2048 terms to the sum of the first 2048 q terms gives the first 2048 (q + 1). -/
theorem step (f : ℕ → EReal) (q : ℕ) (acc : EReal) (hacc : acc = ∑ k ∈ Finset.range (2048 * q), f k)
    (blk : Fin 2048 → EReal) (hblk : ∀ k : Fin 2048, blk k = f (2048 * q + k.val)) :
    acc + ∑ k : Fin 2048, blk k = ∑ k ∈ Finset.range (2048 * (q + 1)), f k := by
  have e : ∑ k : Fin 2048, blk k = ∑ k ∈ Finset.range 2048, f (2048 * q + k) := by
    rw [Finset.sum_range]; exact Finset.sum_congr rfl fun k _ => hblk k
  rw [e, hacc, Nat.mul_add_one, Finset.sum_range_add]

/-- The product of the two blocks' entries at point t is the term at the block's place in the whole contraction. -/
theorem blk_term (c : Dev nD) (t : Fin cfg1.N) (r : Fin 1024) (j : Fin 128) (R : Fin 8192)
    (hR : R.val = 1024 * (t.val / 4) + r.val) (k : Fin 2048)
    (b0 : Vec Ideal S1024x2048 .f32) (b1 : Vec Ideal S2048x128 .f32) (hb0 : b0 = iblk1 V c 0 t) (hb1 : b1 = iblk1 V c 1 t) :
    (b0 (ix2 r k) : EReal) * b1 (ix2 k j)
      = term (V c main_arg0) (V c main_v32) R j (2048 * (t.val % 4) + k.val) := by
  have hk : 2048 * (t.val % 4) + k.val < 8192 := by have := k.isLt; omega
  subst hb0 hb1
  unfold term
  rw [dif_pos hk, blk0_apply V c t r k R ⟨_, hk⟩ hR rfl, blk1_apply V c t k j ⟨_, hk⟩ rfl]

/-- After the point n the output block holds, at (r, j), the sum of the first 2048 (n % 4 + 1) terms of the entry
    (1024 (n / 4) + r, j) of L · x: by induction on the point. -/
theorem outsAt_apply (c : Dev nD) : ∀ (n : ℕ) (h : n < cfg1.N) (r : Fin 1024) (j : Fin 128) (R : Fin 8192),
    R.val = 1024 * (n / 4) + r.val →
    ((outsAt1 V c n h : Vec Ideal S1024x128 .f32) (ix2 r j) : EReal)
      = ∑ k ∈ Finset.range (2048 * (n % 4 + 1)), term (V c main_arg0) (V c main_v32) R j k
  | 0, h, r, j, R, hR => by
    rw [outsAt1_A V c ⟨0, h⟩ rfl, out_A, pay2_apply, pay1_apply]
    exact step _ 0 0 (by simp) _ (fun k => blk_term V c ⟨0, h⟩ r j R hR k _ _ rfl rfl)
  | n + 1, h, r, j, R, hR => by
    have hN : cfg1.N = 32 := N_1
    by_cases h0 : (n + 1) % 4 = 0
    · rw [outsAt1_A V c ⟨n + 1, h⟩ h0, out_A, pay2_apply, pay1_apply, h0]
      exact step _ 0 0 (by simp) _ (fun k => by
        have := blk_term V c ⟨n + 1, h⟩ r j R hR k _ _ rfl rfl
        rw [show (⟨n + 1, h⟩ : Fin cfg1.N).val % 4 = 0 from h0] at this
        exact this)
    · rw [outsAt1_B V c ⟨n + 1, h⟩ h0, out_B, pay2_apply]
      have ih := outsAt_apply c n (Nat.lt_of_succ_lt h) r j R (by omega)
      have hq : (n + 1) % 4 = n % 4 + 1 := by omega
      rw [hq]
      refine step _ (n % 4 + 1) _ ih _ (fun k => ?_)
      have := blk_term V c ⟨n + 1, h⟩ r j R hR k _ _ rfl rfl
      rw [show (⟨n + 1, h⟩ : Fin cfg1.N).val % 4 = n % 4 + 1 from hq] at this
      exact this

/-- All 8192 terms are the entry of the host's product. -/
theorem full_sum (L : FVec Ideal S8192x8192 .f32) (x : FVec Ideal S8192x128 .f32) (R : Fin 8192) (j : Fin 128) :
    ∑ k ∈ Finset.range 8192, term L x R j k = Cert.Chain.lap L x (ix2 R j) := by
  unfold Cert.Chain.lap
  rw [Cert.Lib.HostDot.dotGeneral_plain_apply, Finset.sum_range]
  exact Finset.sum_congr rfl fun k _ => by unfold term; rw [dif_pos k.isLt]

/-! ## From the blocks to the array -/

/-- What a point at the last contraction block writes back is its row block of L · x. -/
theorem flushed_eq (c : Dev nD) (t : Fin cfg1.N) (hf : (cfg1.win 2).flush t = true) :
    (dat1 V c).flushed 2 t
      = ((cfg1.win 2).blk t).view.read (Elt Ideal) (Cert.Chain.lap (V c main_arg0) (V c main_v32)) := by
  have hN : cfg1.N = 32 := N_1
  have ht : t.val < 32 := hN ▸ t.isLt
  have h3 : t.val % 4 = 3 := (flush1_2 t).mp hf
  obtain ⟨-, -, -, -, e4, e5⟩ := idx_facts t
  show (cfg1.win 2).cut (grid1.coords t) ((dat1 V c).after 2 t) = _
  rw [after1_2]
  funext y
  obtain ⟨r, j, rfl⟩ : ∃ (r : Fin 1024) (j : Fin 128), y = ix2 r j := ⟨y 0, y 1, eq_ix2 y⟩
  rw [View.read_apply]
  have hR : 1024 * (t.val / 4) + r.val < 8192 := by have := r.isLt; omega
  have hemb : ((cfg1.win 2).blk t).view.emb (ix2 r j) = ix2 (⟨_, hR⟩ : Fin 8192) j :=
    funext fun a => Fin.ext (by
      match a with
      | ⟨0, _⟩ => show win1_2.index t (0 : Fin 2) * 1024 + 1 * r.val = 1024 * (t.val / 4) + r.val; rw [e4]; omega
      | ⟨1, _⟩ => show win1_2.index t (1 : Fin 2) * 128 + 1 * j.val = j.val; rw [e5]; omega)
  rw [hemb]
  show ((outsAt1 V c t.val t.isLt : Vec Ideal S1024x128 .f32) (ix2 r j) : EReal) = _
  exact ((outsAt_apply V c t.val t.isLt r j ⟨_, hR⟩ rfl).trans (by rw [h3])).trans
    (full_sum (V c main_arg0) (V c main_v32) ⟨_, hR⟩ j)

/-- Every entry of the result array lies in the block some point at the last contraction block writes back. -/
theorem cover (i : S8192x128.Idx) :
    ∃ t : Fin cfg1.N, (cfg1.win 2).flush t = true ∧ i ∈ ((cfg1.win 2).blk t).view.set := by
  have hN : cfg1.N = 32 := N_1
  have h0 : (i 0).val < 8192 := (i 0).isLt
  have h1 : (i 1).val < 128 := (i 1).isLt
  obtain ⟨t, ht⟩ : ∃ t : Fin cfg1.N, t.val = 4 * ((i 0).val / 1024) + 3 := ⟨⟨_, by rw [hN]; omega⟩, rfl⟩
  obtain ⟨-, -, -, -, e4, e5⟩ := idx_facts t
  refine ⟨t, (flush1_2 t).mpr (by rw [ht]; omega), ?_⟩
  show i ∈ ((View.whole main_v33).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 128 ≤ (i 1).val ∧ (i 1).val < win1_2.index t (1 : Fin 2) * 128 + 128
    rw [e5]; omega

/-- The result array after the launch is L · x of the arrays the launch found. -/
theorem final (c : Dev nD) : (dat1 V c).arrAt 2 cfg1.N = Cert.Chain.lap (V c main_arg0) (V c main_v32) :=
  (dat1 V c).arrAt_eq_of_cover 2 _ (flushed_eq V c) cover

end Values

end Cert.KernelIdeal.Region1

end
-- ==== Proof.KerValue.lean ====
/-
  The kernel program's result buffer, read through its twelve segments.

  The contents at the end are a composition from the launch memory (the run).  Read at the result buffer and
  followed backwards: the last stretch gives the second round of the second activation x₁ and the second product,
  plus the input; the second launch leaves the product L · flat x₁ of what it found; the stretches between the
  launches give x₁ = elu of the first round of x₀ = elu (input) and the first product; the first launch leaves
  L · flat x₀; and no segment writes an argument.  Together: the shared composition `Cert.Chain.result` of the
  launch contents of the arguments.
-/
import proofs.«117367_j3496103379445_1_alg».proof.Proof.KerHost
import proofs.«117367_j3496103379445_1_alg».proof.Proof.KerRegion0
import proofs.«117367_j3496103379445_1_alg».proof.Proof.KerRegion1

noncomputable section

namespace Cert.KernelIdeal.Final

open Idealize.ShloMosaic Idealize.ShloMosaic.TcCoe Idealize.SL.Sem Idealize.ShloMosaic.StableHlo
open Idealize.ShloMosaic.Pipeline (Dat)
open Cert.KernelIdeal Cert.KernelIdeal.Gen Cert.Chain

variable (m : (ℓ : Loc nD τ sig) → Buf (Elt Ideal) ℓ) (ρ : Dev nD → PrngReg) (c : Dev nD)

/-! ## Up to the first launch -/

theorem W2_arg (b : Ref sig .tc) (hb : b ∈ ([main_arg0, main_arg2, main_arg3, main_arg4, main_arg5, main_arg6, main_arg7, main_arg8, main_arg9, main_arg10] : List (Ref sig .tc))) :
    W2 m ρ c (Proc.devRef .tc b) = m ((c : Thread nD τ).loc b) :=
  (Host.keep0 (W0 m ρ c) b hb).trans rfl

/-- x₀, the activation of the input. -/
theorem W2_v0 : W2 m ρ c (Proc.devRef .tc main_v0) = elu (m ((c : Thread nD τ).loc main_arg2)) :=
  (Host.keep0_v0 _).trans (Host.act0 (W0 m ρ c))

theorem W2_v1 : W2 m ρ c (Proc.devRef .tc main_v1) = flat (elu (m ((c : Thread nD τ).loc main_arg2))) :=
  (Host.flat0 _).trans (congrArg flat (Host.act0 (W0 m ρ c)))

/-! ## The first launch -/

theorem W3_arg0 : W3 m ρ c (Proc.devRef .tc main_arg0) = (m ((c : Thread nD τ).loc main_arg0)) :=
  ((W3_arr m ρ c 0).trans (((dat0 (V2 m ρ) c).arrAt_in 0 rfl _).trans (A_eq0 (V2 m ρ) c 0))).trans
    (W2_arg m ρ c main_arg0 (by simp))

theorem W3_keep (b : Ref sig .tc) (hb : b ∈ ([main_v0, main_arg2, main_arg3, main_arg4, main_arg5, main_arg6, main_arg7, main_arg8, main_arg9, main_arg10] : List (Ref sig .tc))) :
    W3 m ρ c (Proc.devRef .tc b) = W2 m ρ c (Proc.devRef .tc b) := by
  simp only [List.mem_cons, List.mem_singleton, List.not_mem_nil, or_false] at hb
  rcases hb with rfl | rfl | rfl | rfl | rfl | rfl | rfl | rfl | rfl | rfl <;> exact W3_of_ne m ρ c _ (by decide)

/-- The first product, L · flat x₀. -/
theorem W3_v2 : W3 m ρ c (Proc.devRef .tc main_v2) = lap (m ((c : Thread nD τ).loc main_arg0)) (flat (elu (m ((c : Thread nD τ).loc main_arg2)))) := by
  refine ((W3_arr m ρ c 2).trans (Region0.final (V2 m ρ) c)).trans ?_
  show lap (W2 m ρ c (Proc.devRef .tc main_arg0)) (W2 m ρ c (Proc.devRef .tc main_v1)) = _
  rw [W2_arg m ρ c main_arg0 (by simp), W2_v1]

/-! ## Between the launches -/

/-- x₁, the activation of the first round. -/
theorem W8_v31 : W8 m ρ c (Proc.devRef .tc main_v31)
    = elu (block (elu (m ((c : Thread nD τ).loc main_arg2))) (lap (m ((c : Thread nD τ).loc main_arg0)) (flat (elu (m ((c : Thread nD τ).loc main_arg2)))))
        (m ((c : Thread nD τ).loc main_arg3)) (m ((c : Thread nD τ).loc main_arg4)) (m ((c : Thread nD τ).loc main_arg5)) (m ((c : Thread nD τ).loc main_arg6))) := by
  refine ((Host.keep1_v31 _).trans ((Host.act1 _).trans (congrArg elu (Host.round0 (W3 m ρ c))))).trans ?_
  rw [W3_keep m ρ c main_v0 (by simp), W2_v0, W3_v2, W3_keep m ρ c main_arg3 (by simp), W2_arg m ρ c main_arg3 (by simp),
    W3_keep m ρ c main_arg4 (by simp), W2_arg m ρ c main_arg4 (by simp), W3_keep m ρ c main_arg5 (by simp),
    W2_arg m ρ c main_arg5 (by simp), W3_keep m ρ c main_arg6 (by simp), W2_arg m ρ c main_arg6 (by simp)]

theorem W8_v32 : W8 m ρ c (Proc.devRef .tc main_v32)
    = flat (elu (block (elu (m ((c : Thread nD τ).loc main_arg2))) (lap (m ((c : Thread nD τ).loc main_arg0)) (flat (elu (m ((c : Thread nD τ).loc main_arg2)))))
        (m ((c : Thread nD τ).loc main_arg3)) (m ((c : Thread nD τ).loc main_arg4)) (m ((c : Thread nD τ).loc main_arg5)) (m ((c : Thread nD τ).loc main_arg6)))) := by
  refine ((Host.flat1 _).trans (congrArg flat ((Host.act1 _).trans (congrArg elu (Host.round0 (W3 m ρ c)))))).trans ?_
  rw [W3_keep m ρ c main_v0 (by simp), W2_v0, W3_v2, W3_keep m ρ c main_arg3 (by simp), W2_arg m ρ c main_arg3 (by simp),
    W3_keep m ρ c main_arg4 (by simp), W2_arg m ρ c main_arg4 (by simp), W3_keep m ρ c main_arg5 (by simp),
    W2_arg m ρ c main_arg5 (by simp), W3_keep m ρ c main_arg6 (by simp), W2_arg m ρ c main_arg6 (by simp)]

theorem W8_arg0 : W8 m ρ c (Proc.devRef .tc main_arg0) = (m ((c : Thread nD τ).loc main_arg0)) :=
  (Host.keep1 (W3 m ρ c) main_arg0 (by simp)).trans (W3_arg0 m ρ c)

theorem W8_arg (b : Ref sig .tc) (hb : b ∈ ([main_arg2, main_arg7, main_arg8, main_arg9, main_arg10] : List (Ref sig .tc))) :
    W8 m ρ c (Proc.devRef .tc b) = m ((c : Thread nD τ).loc b) := by
  have h1 : b ∈ ([main_arg0, main_arg2, main_arg7, main_arg8, main_arg9, main_arg10] : List (Ref sig .tc)) := List.mem_cons_of_mem _ hb
  have h2 : b ∈ ([main_v0, main_arg2, main_arg3, main_arg4, main_arg5, main_arg6, main_arg7, main_arg8, main_arg9, main_arg10] : List (Ref sig .tc)) := by
    simp only [List.mem_cons, List.mem_singleton, List.not_mem_nil, or_false] at hb
    rcases hb with rfl | rfl | rfl | rfl | rfl <;> simp
  have h3 : b ∈ ([main_arg0, main_arg2, main_arg3, main_arg4, main_arg5, main_arg6, main_arg7, main_arg8, main_arg9, main_arg10] : List (Ref sig .tc)) := by
    simp only [List.mem_cons, List.mem_singleton, List.not_mem_nil, or_false] at hb
    rcases hb with rfl | rfl | rfl | rfl | rfl <;> simp
  exact ((Host.keep1 (W3 m ρ c) b h1).trans (W3_keep m ρ c b h2)).trans (W2_arg m ρ c b h3)

/-! ## The second launch -/

theorem W9_keep (b : Ref sig .tc) (hb : b ∈ ([main_v31, main_arg2, main_arg7, main_arg8, main_arg9, main_arg10] : List (Ref sig .tc))) :
    W9 m ρ c (Proc.devRef .tc b) = W8 m ρ c (Proc.devRef .tc b) := by
  simp only [List.mem_cons, List.mem_singleton, List.not_mem_nil, or_false] at hb
  rcases hb with rfl | rfl | rfl | rfl | rfl | rfl <;> exact W9_of_ne m ρ c _ (by decide)

/-- The second product, L · flat x₁. -/
theorem W9_v33 : W9 m ρ c (Proc.devRef .tc main_v33)
    = lap (m ((c : Thread nD τ).loc main_arg0)) (flat (elu (block (elu (m ((c : Thread nD τ).loc main_arg2))) (lap (m ((c : Thread nD τ).loc main_arg0)) (flat (elu (m ((c : Thread nD τ).loc main_arg2)))))
        (m ((c : Thread nD τ).loc main_arg3)) (m ((c : Thread nD τ).loc main_arg4)) (m ((c : Thread nD τ).loc main_arg5)) (m ((c : Thread nD τ).loc main_arg6))))) := by
  refine ((W9_arr m ρ c 2).trans (Region1.final (V8 m ρ) c)).trans ?_
  show lap (W8 m ρ c (Proc.devRef .tc main_arg0)) (W8 m ρ c (Proc.devRef .tc main_v32)) = _
  rw [W8_arg0, W8_v32]

/-! ## The result -/

/-- The result buffer ends at the shared composition of the arguments' launch contents. -/
theorem out_eq : W12 m ρ c (Proc.devRef .tc main_v62)
    = result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  refine (Host.round1 (W9 m ρ c)).trans ?_
  rw [W9_keep m ρ c main_v31 (by simp), W8_v31, W9_v33,
    W9_keep m ρ c main_arg7 (by simp), W8_arg m ρ c main_arg7 (by simp),
    W9_keep m ρ c main_arg8 (by simp), W8_arg m ρ c main_arg8 (by simp),
    W9_keep m ρ c main_arg9 (by simp), W8_arg m ρ c main_arg9 (by simp),
    W9_keep m ρ c main_arg10 (by simp), W8_arg m ρ c main_arg10 (by simp),
    W9_keep m ρ c main_arg2 (by simp), W8_arg m ρ c main_arg2 (by simp)]
  rfl

end Cert.KernelIdeal.Final

end
-- ==== Proof.KerOut.lean ====
/-
  The kernel program's run, with its result buffer read: every weakly fair execution terminates without a fault,
  the result buffer holds the shared composition of the arguments' launch contents, and the arguments are unchanged.
-/
import proofs.«117367_j3496103379445_1_alg».proof.Proof.KerRun
import proofs.«117367_j3496103379445_1_alg».proof.Proof.KerValue

noncomputable section

namespace Cert.KernelIdeal.Final

open Idealize.ShloMosaic Idealize.ShloMosaic.TcCoe Idealize.SL.Sem
open Cert.KernelIdeal Cert.KernelIdeal.Gen Cert.Chain

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62)
          = result (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c _ (mem_uc main_v62 (by decide))).trans (out_eq m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)
    (Cert.KernelIdeal.Run.run_all (F := Ideal) m ρ)

end Cert.KernelIdeal.Final

end
-- ==== Proof.RefOps.lean ====
/-
  The reference program's @main as lists of host operations.

  The reference applies to the activations x [4, 2048, 128] two rounds of: ELU, flattening to [8192, 128], the product
  with L [8192, 8192], the join [x | L·x] along the features, the normalisation of each of the 256 columns over the
  8192 rows, and a linear layer back to 128 features; the input is added to the result of the second round.  Its text
  calls four outlined functions (the two ELUs and the two variances, each of which calls a selection in turn) and is cut
  into two windows.  Here the same operations are listed in order, the callees' operations in place of the calls, in
  thirteen lists: one per stretch between two calls, one per callee, one for each of the two products with L, and the
  last stretch cut in two where the text's windows meet.  `main_chain` says that @main is these lists run one after
  the other, `main_eq` that it is the one straight line `ops` of all of them; for every list, `_sub` says that its
  operations touch TensorCore buffers only, `_fresh` that none of them allocates, and `_W` / `_writes` name the buffers
  it writes, so that `_keep` can say that every other buffer holds after the list what it held before.
-/
import proofs.«117367_j3496103379445_1_alg».proof.Proof.Gen.ReferenceIdeal
import Idealize.ShloMosaic.Lib.StableHlo.Run
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-! ## The thirteen lists -/

/-- The first activation: the fifteen operations of ELU on the input `main_arg2`, two comparisons with 0, the
    selection feeding `expm1`, the product with 1 and the final selection; the result is `main_v0`. -/
abbrev hostOps0 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S4x2048x128, .f32⟩) (broadcastInDim S4x2048x128 ![] bcast_S_S4x2048x128),
    StableHlo.TRef.binary (.of main_arg2 : StableHlo.TRef sig ⟨S4x2048x128, .f32⟩) (.of main_call0_v0 : StableHlo.TRef sig ⟨S4x2048x128, .f32⟩) (.of main_call0_v1 : StableHlo.TRef sig ⟨S4x2048x128, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S4x2048x128, .f32⟩) (broadcastInDim S4x2048x128 ![] bcast_S_S4x2048x128),
    StableHlo.TRef.binary (.of main_arg2 : StableHlo.TRef sig ⟨S4x2048x128, .f32⟩) (.of main_call0_v2 : StableHlo.TRef sig ⟨S4x2048x128, .f32⟩) (.of main_call0_v3 : StableHlo.TRef sig ⟨S4x2048x128, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4x2048x128, .f32⟩) (broadcastInDim S4x2048x128 ![] bcast_S_S4x2048x128),
    StableHlo.TRef.ternary (.of main_call0_v3 : StableHlo.TRef sig ⟨S4x2048x128, .i1⟩) (.of main_call0_call0_v1 : StableHlo.TRef sig ⟨S4x2048x128, .f32⟩) (.of main_arg2 : StableHlo.TRef sig ⟨S4x2048x128, .f32⟩) (.of main_call0_v4 : StableHlo.TRef sig ⟨S4x2048x128, .f32⟩) select,
    StableHlo.TRef.unary main_call0_call0.v2 (.of main_call0_v5 : StableHlo.TRef sig ⟨S4x2048x128, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S4x2048x128, .f32⟩) (broadcastInDim S4x2048x128 ![] bcast_S_S4x2048x128),
    StableHlo.TRef.binary (.of main_call0_v6 : StableHlo.TRef sig ⟨S4x2048x128, .f32⟩) (.of main_call0_v5 : StableHlo.TRef sig ⟨S4x2048x128, .f32⟩) (.of main_call0_v7 : StableHlo.TRef sig ⟨S4x2048x128, .f32⟩) mulf,
    StableHlo.TRef.ternary (.of main_call0_v1 : StableHlo.TRef sig ⟨S4x2048x128, .i1⟩) (.of main_arg2 : StableHlo.TRef sig ⟨S4x2048x128, .f32⟩) (.of main_call0_v7 : StableHlo.TRef sig ⟨S4x2048x128, .f32⟩) (.of main_v0 : StableHlo.TRef sig ⟨S4x2048x128, .f32⟩) select ]
/-- Every operation of `hostOps0` touches TensorCore buffers only. -/
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
/-- No operation of `hostOps0` allocates a buffer. -/
theorem hostOps0_fresh : (hostOps0 : List (HloOp τ sig (Elt F))).Forall fun op => op.fresh = ∅ := by
  simp only [List.Forall]; repeat' constructor
/-- The buffers `hostOps0` writes, one per operation, in order. -/
abbrev hostOps0_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v0]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps0` does not write holds after it what it held before. -/
theorem hostOps0_keep (X : Valuation τ sig (Elt F)) (r : Ref sig .tc) (h : r ∉ hostOps0_W) :
    StableHlo.after hostOps0 X (Proc.devRef .tc r) = X (Proc.devRef .tc r) :=
  StableHlo.after_of_writes_sub hostOps0 X hostOps0_writes h

/-- The flattening of `main_v0` [4, 2048, 128] to the matrix `main_v1` [8192, 128]. -/
abbrev hostOps0_1 : List (HloOp τ sig (Elt F)) :=
  [ StableHlo.reshape main_v0 main_v1 rfl shapeCasts_S4x2048x128_S8192x128 ]
/-- Every operation of `hostOps0_1` touches TensorCore buffers only. -/
theorem hostOps0_1_sub : (hostOps0_1 : List (HloOp τ sig (Elt F))).Forall fun op => op.bufs ⊆ StableHlo.tcRefs τ sig :=
  StableHlo.reshape_bufs_sub ..
/-- No operation of `hostOps0_1` allocates a buffer. -/
theorem hostOps0_1_fresh : (hostOps0_1 : List (HloOp τ sig (Elt F))).Forall fun op => op.fresh = ∅ := by
  simp only [List.Forall]; repeat' constructor
/-- The buffers `hostOps0_1` writes, one per operation, in order. -/
abbrev hostOps0_1_W : List (Ref sig .tc) := [main_v1]
theorem hostOps0_1_writes : (hostOps0_1 : List (HloOp τ sig (Elt F))).Forall fun op => op.writes ⊆ (hostOps0_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps0_1` does not write holds after it what it held before. -/
theorem hostOps0_1_keep (X : Valuation τ sig (Elt F)) (r : Ref sig .tc) (h : r ∉ hostOps0_1_W) :
    StableHlo.after hostOps0_1 X (Proc.devRef .tc r) = X (Proc.devRef .tc r) :=
  StableHlo.after_of_writes_sub hostOps0_1 X hostOps0_1_writes h

/-- The first product: `main_v2` = L · `main_v1`, with L = `main_arg0` [8192, 8192], as one host matrix product. -/
abbrev dotOps0 : List (HloOp τ sig (Elt F)) :=
  [ StableHlo.binary main_arg0 main_v1 main_v2 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]
/-- Every operation of `dotOps0` touches TensorCore buffers only. -/
theorem dotOps0_sub : (dotOps0 : List (HloOp τ sig (Elt F))).Forall fun op => op.bufs ⊆ StableHlo.tcRefs τ sig :=
  StableHlo.binary_bufs_sub ..
/-- No operation of `dotOps0` allocates a buffer. -/
theorem dotOps0_fresh : (dotOps0 : List (HloOp τ sig (Elt F))).Forall fun op => op.fresh = ∅ := by
  simp only [List.Forall]; repeat' constructor
/-- The buffers `dotOps0` writes, one per operation, in order. -/
abbrev dotOps0_W : List (Ref sig .tc) := [main_v2]
theorem dotOps0_writes : (dotOps0 : List (HloOp τ sig (Elt F))).Forall fun op => op.writes ⊆ (dotOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `dotOps0` does not write holds after it what it held before. -/
theorem dotOps0_keep (X : Valuation τ sig (Elt F)) (r : Ref sig .tc) (h : r ∉ dotOps0_W) :
    StableHlo.after dotOps0 X (Proc.devRef .tc r) = X (Proc.devRef .tc r) :=
  StableHlo.after_of_writes_sub dotOps0 X dotOps0_writes h

/-- The start of the first round: L · x back in the shape [4, 2048, 128] (`main_v3`), joined to `main_v0` along the
    features (`main_v4`) and flattened to h = `main_v5` [8192, 256]; the column sums of h and the column means
    `main_v8` = sums / 8192; the integer constant 0 the variance takes. -/
abbrev hostOps1 : List (HloOp τ sig (Elt F)) :=
  [ StableHlo.reshape main_v2 main_v3 rfl shapeCasts_S8192x128_S4x2048x128,
    StableHlo.binary main_v0 main_v3 main_v4 ((fun a b => concatenate S4x2048x256 2 [⟨S4x2048x128, a⟩, ⟨S4x2048x128, b⟩] concatenates_S4x2048x128_S4x2048x128_S4x2048x256_d2) : (⟨S4x2048x128, .f32⟩ : BufTy).Contents (Elt F) → (⟨S4x2048x128, .f32⟩ : BufTy).Contents (Elt F) → (⟨S4x2048x256, .f32⟩ : BufTy).Contents (Elt F)),
    StableHlo.reshape main_v4 main_v5 rfl shapeCasts_S4x2048x256_S8192x256,
    StableHlo.nullary main_cst (constant S_ .f32 0x00000000#32),
    StableHlo.binary main_v5 main_cst main_v6 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_0 (constant S_ .f32 0x46000000#32),
    StableHlo.unary main_cst_0 main_v7 (broadcastInDim S256 ![] bcast_S_S256 : (⟨S_, .f32⟩ : BufTy).Contents (Elt F) → (⟨S256, .f32⟩ : BufTy).Contents (Elt F)),
    StableHlo.binary main_v6 main_v7 main_v8 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32) ]
/-- Every operation of `hostOps1` touches TensorCore buffers only. -/
theorem hostOps1_sub : (hostOps1 : List (HloOp τ sig (Elt F))).Forall fun op => op.bufs ⊆ StableHlo.tcRefs τ sig :=
  ⟨StableHlo.reshape_bufs_sub .., StableHlo.binary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
/-- No operation of `hostOps1` allocates a buffer. -/
theorem hostOps1_fresh : (hostOps1 : List (HloOp τ sig (Elt F))).Forall fun op => op.fresh = ∅ := by
  simp only [List.Forall]; repeat' constructor
/-- The buffers `hostOps1` writes, one per operation, in order. -/
abbrev hostOps1_W : List (Ref sig .tc) := [main_v3, main_v4, main_v5, main_cst, main_v6, main_cst_0, main_v7, main_v8, main_c]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps1` does not write holds after it what it held before. -/
theorem hostOps1_keep (X : Valuation τ sig (Elt F)) (r : Ref sig .tc) (h : r ∉ hostOps1_W) :
    StableHlo.after hostOps1 X (Proc.devRef .tc r) = X (Proc.devRef .tc r) :=
  StableHlo.after_of_writes_sub hostOps1 X hostOps1_writes h

/-- The biased variance of each column of h = `main_v5`: the mean again, the squared deviations, their column sums
    divided by 8192 − 0, and the selection that keeps this quotient when the divisor is positive; the result is `main_v9`. -/
abbrev hostOps1_1 : List (HloOp τ sig (Elt F)) :=
  [ StableHlo.TRef.nullary (.of main_call1_cst : StableHlo.TRef sig ⟨S_, .f32⟩) (constant S_ .f32 0x00000000#32),
    StableHlo.TRef.binary (.of main_v5 : StableHlo.TRef sig ⟨S8192x256, .f32⟩) (.of main_call1_cst : StableHlo.TRef sig ⟨S_, .f32⟩) (.of main_call1_v0 : StableHlo.TRef sig ⟨S256, .f32⟩) (fun x v => Host.reduceAdd x v reducesTo_S8192x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S8192x256, .f32⟩) (broadcastInDim S8192x256 ![0, 1] bcast_S1x256_S8192x256_0_1),
    StableHlo.TRef.binary (.of main_v5 : StableHlo.TRef sig ⟨S8192x256, .f32⟩) (.of main_call1_v4 : StableHlo.TRef sig ⟨S8192x256, .f32⟩) (.of main_call1_v5 : StableHlo.TRef sig ⟨S8192x256, .f32⟩) subf,
    StableHlo.TRef.binary (.of main_call1_v5 : StableHlo.TRef sig ⟨S8192x256, .f32⟩) (.of main_call1_v5 : StableHlo.TRef sig ⟨S8192x256, .f32⟩) (.of main_call1_v6 : StableHlo.TRef sig ⟨S8192x256, .f32⟩) mulf,
    StableHlo.TRef.unary (.of main_c : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x256, .f32⟩) (.of main_call1_cst_2 : StableHlo.TRef sig ⟨S_, .f32⟩) (.of main_call1_v9 : StableHlo.TRef sig ⟨S256, .f32⟩) (fun x v => Host.reduceAdd x v reducesTo_S8192x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v9 : StableHlo.TRef sig ⟨S256, .f32⟩) (fun p a b => select (broadcastInDim S256 ![] bcast_S_S256 p) a b) ]
/-- Every operation of `hostOps1_1` touches TensorCore buffers only. -/
theorem hostOps1_1_sub : (hostOps1_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- No operation of `hostOps1_1` allocates a buffer. -/
theorem hostOps1_1_fresh : (hostOps1_1 : List (HloOp τ sig (Elt F))).Forall fun op => op.fresh = ∅ := by
  simp only [List.Forall]; repeat' constructor
/-- The buffers `hostOps1_1` writes, one per operation, in order. -/
abbrev hostOps1_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v9]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps1_1` does not write holds after it what it held before. -/
theorem hostOps1_1_keep (X : Valuation τ sig (Elt F)) (r : Ref sig .tc) (h : r ∉ hostOps1_1_W) :
    StableHlo.after hostOps1_1 X (Proc.devRef .tc r) = X (Proc.devRef .tc r) :=
  StableHlo.after_of_writes_sub hostOps1_1 X hostOps1_1_writes h

/-- The rest of the first round: (h − mean) · rsqrt(var + ε) · γ + β with γ = `main_arg3`, β = `main_arg4` (`main_v24`), the
    linear layer with the transposed weights `main_arg5` and the bias `main_arg6`, and the result back in the shape
    [4, 2048, 128]: `main_v30`. -/
abbrev hostOps1_2 : List (HloOp τ sig (Elt F)) :=
  [ StableHlo.unary main_v8 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S8192x256 ![0, 1] bcast_S1x256_S8192x256_0_1 : (⟨S1x256, .f32⟩ : BufTy).Contents (Elt F) → (⟨S8192x256, .f32⟩ : BufTy).Contents (Elt F)),
    StableHlo.binary main_v5 main_v11 main_v12 (subf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x3727C5AC#32),
    StableHlo.unary main_cst_1 main_v13 (broadcastInDim S256 ![] bcast_S_S256 : (⟨S_, .f32⟩ : BufTy).Contents (Elt F) → (⟨S256, .f32⟩ : BufTy).Contents (Elt F)),
    StableHlo.binary main_v9 main_v13 main_v14 (addf : (⟨S256, .f32⟩ : BufTy).Contents (Elt F) → (⟨S256, .f32⟩ : BufTy).Contents (Elt F) → (⟨S256, .f32⟩ : BufTy).Contents (Elt F)),
    StableHlo.unary main_v14 main_v15 (Host.rsqrt : (⟨S256, .f32⟩ : BufTy).Contents (Elt F) → (⟨S256, .f32⟩ : BufTy).Contents (Elt F)),
    StableHlo.unary main_v15 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S8192x256 ![0, 1] bcast_S1x256_S8192x256_0_1 : (⟨S1x256, .f32⟩ : BufTy).Contents (Elt F) → (⟨S8192x256, .f32⟩ : BufTy).Contents (Elt F)),
    StableHlo.binary main_v12 main_v17 main_v18 (mulf : (⟨S8192x256, .f32⟩ : BufTy).Contents (Elt F) → (⟨S8192x256, .f32⟩ : BufTy).Contents (Elt F) → (⟨S8192x256, .f32⟩ : BufTy).Contents (Elt F)),
    StableHlo.unary main_arg3 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S8192x256 ![0, 1] bcast_S1x256_S8192x256_0_1 : (⟨S1x256, .f32⟩ : BufTy).Contents (Elt F) → (⟨S8192x256, .f32⟩ : BufTy).Contents (Elt F)),
    StableHlo.binary main_v18 main_v20 main_v21 (mulf : (⟨S8192x256, .f32⟩ : BufTy).Contents (Elt F) → (⟨S8192x256, .f32⟩ : BufTy).Contents (Elt F) → (⟨S8192x256, .f32⟩ : BufTy).Contents (Elt F)),
    StableHlo.unary main_arg4 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S8192x256 ![0, 1] bcast_S1x256_S8192x256_0_1 : (⟨S1x256, .f32⟩ : BufTy).Contents (Elt F) → (⟨S8192x256, .f32⟩ : BufTy).Contents (Elt F)),
    StableHlo.binary main_v21 main_v23 main_v24 (addf : (⟨S8192x256, .f32⟩ : BufTy).Contents (Elt F) → (⟨S8192x256, .f32⟩ : BufTy).Contents (Elt F) → (⟨S8192x256, .f32⟩ : BufTy).Contents (Elt F)),
    StableHlo.unary main_arg5 main_v25 ((transpose S256x128 [1, 0] · transposes_S128x256_S256x128_1_0) : (⟨S128x256, .f32⟩ : BufTy).Contents (Elt F) → (⟨S256x128, .f32⟩ : BufTy).Contents (Elt F)),
    StableHlo.binary main_v24 main_v25 main_v26 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg6 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S8192x128 ![0, 1] bcast_S1x128_S8192x128_0_1 : (⟨S1x128, .f32⟩ : BufTy).Contents (Elt F) → (⟨S8192x128, .f32⟩ : BufTy).Contents (Elt F)),
    StableHlo.binary main_v26 main_v28 main_v29 (addf : (⟨S8192x128, .f32⟩ : BufTy).Contents (Elt F) → (⟨S8192x128, .f32⟩ : BufTy).Contents (Elt F) → (⟨S8192x128, .f32⟩ : BufTy).Contents (Elt F)),
    StableHlo.reshape main_v29 main_v30 rfl shapeCasts_S8192x128_S4x2048x128 ]
/-- Every operation of `hostOps1_2` touches TensorCore buffers only. -/
theorem hostOps1_2_sub : (hostOps1_2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub ..⟩
/-- No operation of `hostOps1_2` allocates a buffer. -/
theorem hostOps1_2_fresh : (hostOps1_2 : List (HloOp τ sig (Elt F))).Forall fun op => op.fresh = ∅ := by
  simp only [List.Forall]; repeat' constructor
/-- The buffers `hostOps1_2` writes, one per operation, in order. -/
abbrev hostOps1_2_W : List (Ref sig .tc) := [main_v10, main_v11, main_v12, main_cst_1, main_v13, main_v14, main_v15, main_v16, main_v17, main_v18, main_v19, main_v20, main_v21, main_v22, main_v23, main_v24, main_v25, main_v26, main_v27, main_v28, main_v29, main_v30]
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps1_2` does not write holds after it what it held before. -/
theorem hostOps1_2_keep (X : Valuation τ sig (Elt F)) (r : Ref sig .tc) (h : r ∉ hostOps1_2_W) :
    StableHlo.after hostOps1_2 X (Proc.devRef .tc r) = X (Proc.devRef .tc r) :=
  StableHlo.after_of_writes_sub hostOps1_2 X hostOps1_2_writes h

/-- The second activation: the same fifteen operations of ELU on `main_v30`; the result is `main_v31`. -/
abbrev hostOps1_3 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4x2048x128, .f32⟩) (broadcastInDim S4x2048x128 ![] bcast_S_S4x2048x128),
    StableHlo.TRef.binary (.of main_v30 : StableHlo.TRef sig ⟨S4x2048x128, .f32⟩) (.of main_call2_v0 : StableHlo.TRef sig ⟨S4x2048x128, .f32⟩) (.of main_call2_v1 : StableHlo.TRef sig ⟨S4x2048x128, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S4x2048x128, .f32⟩) (broadcastInDim S4x2048x128 ![] bcast_S_S4x2048x128),
    StableHlo.TRef.binary (.of main_v30 : StableHlo.TRef sig ⟨S4x2048x128, .f32⟩) (.of main_call2_v2 : StableHlo.TRef sig ⟨S4x2048x128, .f32⟩) (.of main_call2_v3 : StableHlo.TRef sig ⟨S4x2048x128, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S4x2048x128, .f32⟩) (broadcastInDim S4x2048x128 ![] bcast_S_S4x2048x128),
    StableHlo.TRef.ternary (.of main_call2_v3 : StableHlo.TRef sig ⟨S4x2048x128, .i1⟩) (.of main_call2_call0_v1 : StableHlo.TRef sig ⟨S4x2048x128, .f32⟩) (.of main_v30 : StableHlo.TRef sig ⟨S4x2048x128, .f32⟩) (.of main_call2_v4 : StableHlo.TRef sig ⟨S4x2048x128, .f32⟩) select,
    StableHlo.TRef.unary main_call2_call0.v2 (.of main_call2_v5 : StableHlo.TRef sig ⟨S4x2048x128, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S4x2048x128, .f32⟩) (broadcastInDim S4x2048x128 ![] bcast_S_S4x2048x128),
    StableHlo.TRef.binary (.of main_call2_v6 : StableHlo.TRef sig ⟨S4x2048x128, .f32⟩) (.of main_call2_v5 : StableHlo.TRef sig ⟨S4x2048x128, .f32⟩) (.of main_call2_v7 : StableHlo.TRef sig ⟨S4x2048x128, .f32⟩) mulf,
    StableHlo.TRef.ternary (.of main_call2_v1 : StableHlo.TRef sig ⟨S4x2048x128, .i1⟩) (.of main_v30 : StableHlo.TRef sig ⟨S4x2048x128, .f32⟩) (.of main_call2_v7 : StableHlo.TRef sig ⟨S4x2048x128, .f32⟩) (.of main_v31 : StableHlo.TRef sig ⟨S4x2048x128, .f32⟩) select ]
/-- Every operation of `hostOps1_3` touches TensorCore buffers only. -/
theorem hostOps1_3_sub : (hostOps1_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
/-- No operation of `hostOps1_3` allocates a buffer. -/
theorem hostOps1_3_fresh : (hostOps1_3 : List (HloOp τ sig (Elt F))).Forall fun op => op.fresh = ∅ := by
  simp only [List.Forall]; repeat' constructor
/-- The buffers `hostOps1_3` writes, one per operation, in order. -/
abbrev hostOps1_3_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v31]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps1_3` does not write holds after it what it held before. -/
theorem hostOps1_3_keep (X : Valuation τ sig (Elt F)) (r : Ref sig .tc) (h : r ∉ hostOps1_3_W) :
    StableHlo.after hostOps1_3 X (Proc.devRef .tc r) = X (Proc.devRef .tc r) :=
  StableHlo.after_of_writes_sub hostOps1_3 X hostOps1_3_writes h

/-- The flattening of `main_v31` to the matrix `main_v32` [8192, 128]. -/
abbrev hostOps1_4 : List (HloOp τ sig (Elt F)) :=
  [ StableHlo.reshape main_v31 main_v32 rfl shapeCasts_S4x2048x128_S8192x128 ]
/-- Every operation of `hostOps1_4` touches TensorCore buffers only. -/
theorem hostOps1_4_sub : (hostOps1_4 : List (HloOp τ sig (Elt F))).Forall fun op => op.bufs ⊆ StableHlo.tcRefs τ sig :=
  StableHlo.reshape_bufs_sub ..
/-- No operation of `hostOps1_4` allocates a buffer. -/
theorem hostOps1_4_fresh : (hostOps1_4 : List (HloOp τ sig (Elt F))).Forall fun op => op.fresh = ∅ := by
  simp only [List.Forall]; repeat' constructor
/-- The buffers `hostOps1_4` writes, one per operation, in order. -/
abbrev hostOps1_4_W : List (Ref sig .tc) := [main_v32]
theorem hostOps1_4_writes : (hostOps1_4 : List (HloOp τ sig (Elt F))).Forall fun op => op.writes ⊆ (hostOps1_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps1_4` does not write holds after it what it held before. -/
theorem hostOps1_4_keep (X : Valuation τ sig (Elt F)) (r : Ref sig .tc) (h : r ∉ hostOps1_4_W) :
    StableHlo.after hostOps1_4 X (Proc.devRef .tc r) = X (Proc.devRef .tc r) :=
  StableHlo.after_of_writes_sub hostOps1_4 X hostOps1_4_writes h

/-- The second product: `main_v33` = L · `main_v32`. -/
abbrev dotOps1 : List (HloOp τ sig (Elt F)) :=
  [ StableHlo.binary main_arg0 main_v32 main_v33 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]
/-- Every operation of `dotOps1` touches TensorCore buffers only. -/
theorem dotOps1_sub : (dotOps1 : List (HloOp τ sig (Elt F))).Forall fun op => op.bufs ⊆ StableHlo.tcRefs τ sig :=
  StableHlo.binary_bufs_sub ..
/-- No operation of `dotOps1` allocates a buffer. -/
theorem dotOps1_fresh : (dotOps1 : List (HloOp τ sig (Elt F))).Forall fun op => op.fresh = ∅ := by
  simp only [List.Forall]; repeat' constructor
/-- The buffers `dotOps1` writes, one per operation, in order. -/
abbrev dotOps1_W : List (Ref sig .tc) := [main_v33]
theorem dotOps1_writes : (dotOps1 : List (HloOp τ sig (Elt F))).Forall fun op => op.writes ⊆ (dotOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `dotOps1` does not write holds after it what it held before. -/
theorem dotOps1_keep (X : Valuation τ sig (Elt F)) (r : Ref sig .tc) (h : r ∉ dotOps1_W) :
    StableHlo.after dotOps1 X (Proc.devRef .tc r) = X (Proc.devRef .tc r) :=
  StableHlo.after_of_writes_sub dotOps1 X dotOps1_writes h

/-- The start of the second round, as in the first: h = `main_v36` from `main_v31` and `main_v33`, the column means `main_v39`,
    the integer constant 0. -/
abbrev hostOps2 : List (HloOp τ sig (Elt F)) :=
  [ StableHlo.reshape main_v33 main_v34 rfl shapeCasts_S8192x128_S4x2048x128,
    StableHlo.binary main_v31 main_v34 main_v35 ((fun a b => concatenate S4x2048x256 2 [⟨S4x2048x128, a⟩, ⟨S4x2048x128, b⟩] concatenates_S4x2048x128_S4x2048x128_S4x2048x256_d2) : (⟨S4x2048x128, .f32⟩ : BufTy).Contents (Elt F) → (⟨S4x2048x128, .f32⟩ : BufTy).Contents (Elt F) → (⟨S4x2048x256, .f32⟩ : BufTy).Contents (Elt F)),
    StableHlo.reshape main_v35 main_v36 rfl shapeCasts_S4x2048x256_S8192x256,
    StableHlo.nullary main_cst_2 (constant S_ .f32 0x00000000#32),
    StableHlo.binary main_v36 main_cst_2 main_v37 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_3 (constant S_ .f32 0x46000000#32),
    StableHlo.unary main_cst_3 main_v38 (broadcastInDim S256 ![] bcast_S_S256 : (⟨S_, .f32⟩ : BufTy).Contents (Elt F) → (⟨S256, .f32⟩ : BufTy).Contents (Elt F)),
    StableHlo.binary main_v37 main_v38 main_v39 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32) ]
/-- Every operation of `hostOps2` touches TensorCore buffers only. -/
theorem hostOps2_sub : (hostOps2 : List (HloOp τ sig (Elt F))).Forall fun op => op.bufs ⊆ StableHlo.tcRefs τ sig :=
  ⟨StableHlo.reshape_bufs_sub .., StableHlo.binary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
/-- No operation of `hostOps2` allocates a buffer. -/
theorem hostOps2_fresh : (hostOps2 : List (HloOp τ sig (Elt F))).Forall fun op => op.fresh = ∅ := by
  simp only [List.Forall]; repeat' constructor
/-- The buffers `hostOps2` writes, one per operation, in order. -/
abbrev hostOps2_W : List (Ref sig .tc) := [main_v34, main_v35, main_v36, main_cst_2, main_v37, main_cst_3, main_v38, main_v39, main_c_4]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps2` does not write holds after it what it held before. -/
theorem hostOps2_keep (X : Valuation τ sig (Elt F)) (r : Ref sig .tc) (h : r ∉ hostOps2_W) :
    StableHlo.after hostOps2 X (Proc.devRef .tc r) = X (Proc.devRef .tc r) :=
  StableHlo.after_of_writes_sub hostOps2 X hostOps2_writes h

/-- The biased variance of each column of h = `main_v36`; the result is `main_v40`. -/
abbrev hostOps2_1 : List (HloOp τ sig (Elt F)) :=
  [ StableHlo.TRef.nullary (.of main_call3_cst : StableHlo.TRef sig ⟨S_, .f32⟩) (constant S_ .f32 0x00000000#32),
    StableHlo.TRef.binary (.of main_v36 : StableHlo.TRef sig ⟨S8192x256, .f32⟩) (.of main_call3_cst : StableHlo.TRef sig ⟨S_, .f32⟩) (.of main_call3_v0 : StableHlo.TRef sig ⟨S256, .f32⟩) (fun x v => Host.reduceAdd x v reducesTo_S8192x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x46000000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S8192x256, .f32⟩) (broadcastInDim S8192x256 ![0, 1] bcast_S1x256_S8192x256_0_1),
    StableHlo.TRef.binary (.of main_v36 : StableHlo.TRef sig ⟨S8192x256, .f32⟩) (.of main_call3_v4 : StableHlo.TRef sig ⟨S8192x256, .f32⟩) (.of main_call3_v5 : StableHlo.TRef sig ⟨S8192x256, .f32⟩) subf,
    StableHlo.TRef.binary (.of main_call3_v5 : StableHlo.TRef sig ⟨S8192x256, .f32⟩) (.of main_call3_v5 : StableHlo.TRef sig ⟨S8192x256, .f32⟩) (.of main_call3_v6 : StableHlo.TRef sig ⟨S8192x256, .f32⟩) mulf,
    StableHlo.TRef.unary (.of main_c_4 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S8192x256, .f32⟩) (.of main_call3_cst_2 : StableHlo.TRef sig ⟨S_, .f32⟩) (.of main_call3_v9 : StableHlo.TRef sig ⟨S256, .f32⟩) (fun x v => Host.reduceAdd x v reducesTo_S8192x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v40 : StableHlo.TRef sig ⟨S256, .f32⟩) (fun p a b => select (broadcastInDim S256 ![] bcast_S_S256 p) a b) ]
/-- Every operation of `hostOps2_1` touches TensorCore buffers only. -/
theorem hostOps2_1_sub : (hostOps2_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- No operation of `hostOps2_1` allocates a buffer. -/
theorem hostOps2_1_fresh : (hostOps2_1 : List (HloOp τ sig (Elt F))).Forall fun op => op.fresh = ∅ := by
  simp only [List.Forall]; repeat' constructor
/-- The buffers `hostOps2_1` writes, one per operation, in order. -/
abbrev hostOps2_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v40]
theorem hostOps2_1_writes : (hostOps2_1 : List (HloOp τ sig (Elt F))).Forall fun op => op.writes ⊆ (hostOps2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps2_1` does not write holds after it what it held before. -/
theorem hostOps2_1_keep (X : Valuation τ sig (Elt F)) (r : Ref sig .tc) (h : r ∉ hostOps2_1_W) :
    StableHlo.after hostOps2_1 X (Proc.devRef .tc r) = X (Proc.devRef .tc r) :=
  StableHlo.after_of_writes_sub hostOps2_1 X hostOps2_1_writes h

/-- The second round's normalisation up to the scale: (h − mean) · rsqrt(var + ε) = `main_v49`, and γ = `main_arg7` spread
    over the rows (`main_v51`). The program's text is cut into two windows after this operation. -/
abbrev hostOps2_2a : List (HloOp τ sig (Elt F)) :=
  [ StableHlo.unary main_v39 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S8192x256 ![0, 1] bcast_S1x256_S8192x256_0_1 : (⟨S1x256, .f32⟩ : BufTy).Contents (Elt F) → (⟨S8192x256, .f32⟩ : BufTy).Contents (Elt F)),
    StableHlo.binary main_v36 main_v42 main_v43 (subf : (⟨S8192x256, .f32⟩ : BufTy).Contents (Elt F) → (⟨S8192x256, .f32⟩ : BufTy).Contents (Elt F) → (⟨S8192x256, .f32⟩ : BufTy).Contents (Elt F)),
    StableHlo.nullary main_cst_5 (constant S_ .f32 0x3727C5AC#32),
    StableHlo.unary main_cst_5 main_v44 (broadcastInDim S256 ![] bcast_S_S256 : (⟨S_, .f32⟩ : BufTy).Contents (Elt F) → (⟨S256, .f32⟩ : BufTy).Contents (Elt F)),
    StableHlo.binary main_v40 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S8192x256 ![0, 1] bcast_S1x256_S8192x256_0_1 : (⟨S1x256, .f32⟩ : BufTy).Contents (Elt F) → (⟨S8192x256, .f32⟩ : BufTy).Contents (Elt F)),
    StableHlo.binary main_v43 main_v48 main_v49 (mulf : (⟨S8192x256, .f32⟩ : BufTy).Contents (Elt F) → (⟨S8192x256, .f32⟩ : BufTy).Contents (Elt F) → (⟨S8192x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S8192x256 ![0, 1] bcast_S1x256_S8192x256_0_1 : (⟨S1x256, .f32⟩ : BufTy).Contents (Elt F) → (⟨S8192x256, .f32⟩ : BufTy).Contents (Elt F)) ]
/-- Every operation of `hostOps2_2a` touches TensorCore buffers only. -/
theorem hostOps2_2a_sub : (hostOps2_2a : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩
/-- No operation of `hostOps2_2a` allocates a buffer. -/
theorem hostOps2_2a_fresh : (hostOps2_2a : List (HloOp τ sig (Elt F))).Forall fun op => op.fresh = ∅ := by
  simp only [List.Forall]; repeat' constructor
/-- The buffers `hostOps2_2a` writes, one per operation, in order. -/
abbrev hostOps2_2a_W : List (Ref sig .tc) := [main_v41, main_v42, main_v43, main_cst_5, main_v44, main_v45, main_v46, main_v47, main_v48, main_v49, main_v50, main_v51]
theorem hostOps2_2a_writes : (hostOps2_2a : List (HloOp τ sig (Elt F))).Forall fun op => op.writes ⊆ (hostOps2_2a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps2_2a` does not write holds after it what it held before. -/
theorem hostOps2_2a_keep (X : Valuation τ sig (Elt F)) (r : Ref sig .tc) (h : r ∉ hostOps2_2a_W) :
    StableHlo.after hostOps2_2a X (Proc.devRef .tc r) = X (Proc.devRef .tc r) :=
  StableHlo.after_of_writes_sub hostOps2_2a X hostOps2_2a_writes h

/-- The end: the product with γ, the shift by β = `main_arg8`, the linear layer with `main_arg9` and `main_arg10`, the shape
    [4, 2048, 128] again (`main_v61`), and the input `main_arg2` added back: the result `main_v62`. -/
abbrev hostOps2_2b : List (HloOp τ sig (Elt F)) :=
  [ StableHlo.binary main_v49 main_v51 main_v52 (mulf : (⟨S8192x256, .f32⟩ : BufTy).Contents (Elt F) → (⟨S8192x256, .f32⟩ : BufTy).Contents (Elt F) → (⟨S8192x256, .f32⟩ : BufTy).Contents (Elt F)),
    StableHlo.unary main_arg8 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S8192x256 ![0, 1] bcast_S1x256_S8192x256_0_1 : (⟨S1x256, .f32⟩ : BufTy).Contents (Elt F) → (⟨S8192x256, .f32⟩ : BufTy).Contents (Elt F)),
    StableHlo.binary main_v52 main_v54 main_v55 (addf : (⟨S8192x256, .f32⟩ : BufTy).Contents (Elt F) → (⟨S8192x256, .f32⟩ : BufTy).Contents (Elt F) → (⟨S8192x256, .f32⟩ : BufTy).Contents (Elt F)),
    StableHlo.unary main_arg9 main_v56 ((transpose S256x128 [1, 0] · transposes_S128x256_S256x128_1_0) : (⟨S128x256, .f32⟩ : BufTy).Contents (Elt F) → (⟨S256x128, .f32⟩ : BufTy).Contents (Elt F)),
    StableHlo.binary main_v55 main_v56 main_v57 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S8192x128 ![0, 1] bcast_S1x128_S8192x128_0_1 : (⟨S1x128, .f32⟩ : BufTy).Contents (Elt F) → (⟨S8192x128, .f32⟩ : BufTy).Contents (Elt F)),
    StableHlo.binary main_v57 main_v59 main_v60 (addf : (⟨S8192x128, .f32⟩ : BufTy).Contents (Elt F) → (⟨S8192x128, .f32⟩ : BufTy).Contents (Elt F) → (⟨S8192x128, .f32⟩ : BufTy).Contents (Elt F)),
    StableHlo.reshape main_v60 main_v61 rfl shapeCasts_S8192x128_S4x2048x128,
    StableHlo.binary main_v61 main_arg2 main_v62 (addf : (⟨S4x2048x128, .f32⟩ : BufTy).Contents (Elt F) → (⟨S4x2048x128, .f32⟩ : BufTy).Contents (Elt F) → (⟨S4x2048x128, .f32⟩ : BufTy).Contents (Elt F)) ]
/-- Every operation of `hostOps2_2b` touches TensorCore buffers only. -/
theorem hostOps2_2b_sub : (hostOps2_2b : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub ..⟩
/-- No operation of `hostOps2_2b` allocates a buffer. -/
theorem hostOps2_2b_fresh : (hostOps2_2b : List (HloOp τ sig (Elt F))).Forall fun op => op.fresh = ∅ := by
  simp only [List.Forall]; repeat' constructor
/-- The buffers `hostOps2_2b` writes, one per operation, in order. -/
abbrev hostOps2_2b_W : List (Ref sig .tc) := [main_v52, main_v53, main_v54, main_v55, main_v56, main_v57, main_v58, main_v59, main_v60, main_v61, main_v62]
theorem hostOps2_2b_writes : (hostOps2_2b : List (HloOp τ sig (Elt F))).Forall fun op => op.writes ⊆ (hostOps2_2b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer `hostOps2_2b` does not write holds after it what it held before. -/
theorem hostOps2_2b_keep (X : Valuation τ sig (Elt F)) (r : Ref sig .tc) (h : r ∉ hostOps2_2b_W) :
    StableHlo.after hostOps2_2b X (Proc.devRef .tc r) = X (Proc.devRef .tc r) :=
  StableHlo.after_of_writes_sub hostOps2_2b X hostOps2_2b_writes h

/-! ## @main is the lists in a row -/

/-- The first window of the text is the first twelve lists in a row, the twelfth in tail position: both sides unfold to
    the same sequence of operations. -/
theorem main_part0_chain (c : Dev nD) : main_part0 (F := F) c = (Pipeline.chainK
  [
    StableHlo.seq hostOps0,
    StableHlo.seq hostOps0_1,
    StableHlo.seq dotOps0,
    StableHlo.seq hostOps1,
    StableHlo.seq hostOps1_1,
    StableHlo.seq hostOps1_2,
    StableHlo.seq hostOps1_3,
    StableHlo.seq hostOps1_4,
    StableHlo.seq dotOps1,
    StableHlo.seq hostOps2,
    StableHlo.seq hostOps2_1 ]
  (StableHlo.seq hostOps2_2a) : Prog (TpuEff nD τ sig (Elt F) (Pipeline.Sig Λ₀ (Fin 0) fun p => (pcfgs (F := F) p).Adm) .tc) PUnit) := by
  chain_rfl

/-- The second window is the last list. -/
theorem main_part1_chain (c : Dev nD) : main_part1 (F := F) c = (Pipeline.chain
  [ StableHlo.seq hostOps2_2b ] : Prog (TpuEff nD τ sig (Elt F) (Pipeline.Sig Λ₀ (Fin 0) fun p => (pcfgs (F := F) p).Adm) .tc) PUnit) := by
  chain_rfl

/-- @main, the first window then the second, is the thirteen lists in a row. -/
theorem main_chain (c : Dev nD) : main (F := F) c = (Pipeline.chain
  [
    StableHlo.seq hostOps0,
    StableHlo.seq hostOps0_1,
    StableHlo.seq dotOps0,
    StableHlo.seq hostOps1,
    StableHlo.seq hostOps1_1,
    StableHlo.seq hostOps1_2,
    StableHlo.seq hostOps1_3,
    StableHlo.seq hostOps1_4,
    StableHlo.seq dotOps1,
    StableHlo.seq hostOps2,
    StableHlo.seq hostOps2_1,
    StableHlo.seq hostOps2_2a,
    StableHlo.seq hostOps2_2b ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

/-! ## @main is one straight line -/

/-- All the operations of @main, in order. -/
abbrev ops : List (HloOp τ sig (Elt F)) :=
  hostOps0 ++ (hostOps0_1 ++ (dotOps0 ++ (hostOps1 ++ (hostOps1_1 ++ (hostOps1_2 ++ (hostOps1_3 ++ (hostOps1_4 ++ (dotOps1 ++ (hostOps2 ++ (hostOps2_1 ++ (hostOps2_2a ++ (hostOps2_2b))))))))))))

/-- Lists of operations run one after the other are their concatenation run as one line. -/
theorem chain_seq : ∀ (its : List (List (HloOp τ sig (Elt F)))),
    (Pipeline.chain (its.map StableHlo.seq) : Prog (TpuEff nD τ sig (Elt F) (Pipeline.Sig Λ₀ (Fin 0) fun p => (pcfgs (F := F) p).Adm) .tc) PUnit) = StableHlo.seq its.flatten
  | [] => rfl
  | l :: its => by rw [List.map_cons, Pipeline.chain_cons, chain_seq its, List.flatten_cons, StableHlo.seq_append]

theorem main_eq (c : Dev nD) : main (F := F) c = StableHlo.seq ops :=
  (main_chain c).trans ((chain_seq [hostOps0, hostOps0_1, dotOps0, hostOps1, hostOps1_1, hostOps1_2, hostOps1_3, hostOps1_4, dotOps1, hostOps2, hostOps2_1, hostOps2_2a, hostOps2_2b]).trans
    (congrArg StableHlo.seq (by simp only [List.flatten_cons, List.flatten_nil, List.append_nil])))

/-- The reference's signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  List.forall_iff_forall_mem.mpr fun op h => by
    simp only [ops, List.mem_append] at h
    rcases h with h | h | h | h | h | h | h | h | h | h | h | h | h
    exacts [List.forall_iff_forall_mem.mp hostOps0_sub op h,
      List.forall_iff_forall_mem.mp hostOps0_1_sub op h,
      List.forall_iff_forall_mem.mp dotOps0_sub op h,
      List.forall_iff_forall_mem.mp hostOps1_sub op h,
      List.forall_iff_forall_mem.mp hostOps1_1_sub op h,
      List.forall_iff_forall_mem.mp hostOps1_2_sub op h,
      List.forall_iff_forall_mem.mp hostOps1_3_sub op h,
      List.forall_iff_forall_mem.mp hostOps1_4_sub op h,
      List.forall_iff_forall_mem.mp dotOps1_sub op h,
      List.forall_iff_forall_mem.mp hostOps2_sub op h,
      List.forall_iff_forall_mem.mp hostOps2_1_sub op h,
      List.forall_iff_forall_mem.mp hostOps2_2a_sub op h,
      List.forall_iff_forall_mem.mp hostOps2_2b_sub op h]

theorem ops_fresh : ∀ op ∈ (ops : List (HloOp τ sig (Elt F))), op.fresh = ∅ := fun op h => by
    simp only [ops, List.mem_append] at h
    rcases h with h | h | h | h | h | h | h | h | h | h | h | h | h
    exacts [List.forall_iff_forall_mem.mp hostOps0_fresh op h,
      List.forall_iff_forall_mem.mp hostOps0_1_fresh op h,
      List.forall_iff_forall_mem.mp dotOps0_fresh op h,
      List.forall_iff_forall_mem.mp hostOps1_fresh op h,
      List.forall_iff_forall_mem.mp hostOps1_1_fresh op h,
      List.forall_iff_forall_mem.mp hostOps1_2_fresh op h,
      List.forall_iff_forall_mem.mp hostOps1_3_fresh op h,
      List.forall_iff_forall_mem.mp hostOps1_4_fresh op h,
      List.forall_iff_forall_mem.mp dotOps1_fresh op h,
      List.forall_iff_forall_mem.mp hostOps2_fresh op h,
      List.forall_iff_forall_mem.mp hostOps2_1_fresh op h,
      List.forall_iff_forall_mem.mp hostOps2_2a_fresh op h,
      List.forall_iff_forall_mem.mp hostOps2_2b_fresh op h]

end Cert.ReferenceIdeal.RefValue

end
-- ==== Proof.RefRun.lean ====
/-
  The reference program's run, read back as a closed function of its arguments.

  @main is one straight line of host operations (`main_eq`), so every weakly fair execution terminates with each buffer
  at the fold of the operations' results over what the buffers held at launch.  The fold is read stretch by stretch: from
  ANY buffer contents X, each stretch leaves in its result buffer one of the shared functions (the activation `elu`, the
  flattening `flat`, the product `lap` with L, one whole round `block` after the product) of what X holds in the stretch's
  input buffers, and leaves every buffer it does not write as it was.  Composing the eight stretches, the result buffer
  `main_v62` ends at `Cert.Chain.result` of the ten arguments the program reads, and no argument buffer is written.
-/
import proofs.«117367_j3496103379445_1_alg».proof.Proof.RefOps
import proofs.«117367_j3496103379445_1_alg».proof.Proof.Spec
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## Each stretch, from any contents -/

section Stretches

variable (X : Valuation τ sig (Elt Ideal))

/-- After the first activation's operations `main_v0` holds the ELU of the input `main_arg2`. -/
theorem act0 : StableHlo.after (hostOps0 (F := Ideal)) X (Proc.devRef .tc main_v0)
    = Cert.Chain.elu (X (Proc.devRef .tc main_arg2)) := by
  after_results_simp
  rfl

/-- After the reshape `main_v1` holds `main_v0` flattened to [8192, 128]. -/
theorem flat0 : StableHlo.after (hostOps0_1 (F := Ideal)) X (Proc.devRef .tc main_v1)
    = Cert.Chain.flat (X (Proc.devRef .tc main_v0)) := by
  after_results_simp
  rfl

/-- After the first product `main_v2` holds L · `main_v1`: the printed contraction record — contract the second axis of
    the left factor with the first of the right, no batch axes — is the plain matrix product's. -/
theorem lap0 : StableHlo.after (dotOps0 (F := Ideal)) X (Proc.devRef .tc main_v2)
    = Cert.Chain.lap (X (Proc.devRef .tc main_arg0)) (X (Proc.devRef .tc main_v1)) := by
  after_results_simp
  rfl

/-- After the first round's fifty-three operations `main_v30` holds the round's function of x = `main_v0`, L·x = `main_v2`,
    the scale and shift `main_arg3`, `main_arg4`, the weights `main_arg5` and the bias `main_arg6`. -/
theorem block0 : StableHlo.after (hostOps1_2 (F := Ideal)) (StableHlo.after (hostOps1_1 (F := Ideal)) (StableHlo.after (hostOps1 (F := Ideal)) X)) (Proc.devRef .tc main_v30)
    = Cert.Chain.block (X (Proc.devRef .tc main_v0)) (X (Proc.devRef .tc main_v2)) (X (Proc.devRef .tc main_arg3)) (X (Proc.devRef .tc main_arg4)) (X (Proc.devRef .tc main_arg5)) (X (Proc.devRef .tc main_arg6)) := by
  after_results_simp
  rfl

/-- After the second activation's operations `main_v31` holds the ELU of `main_v30`. -/
theorem act1 : StableHlo.after (hostOps1_3 (F := Ideal)) X (Proc.devRef .tc main_v31)
    = Cert.Chain.elu (X (Proc.devRef .tc main_v30)) := by
  after_results_simp
  rfl

/-- After the reshape `main_v32` holds `main_v31` flattened. -/
theorem flat1 : StableHlo.after (hostOps1_4 (F := Ideal)) X (Proc.devRef .tc main_v32)
    = Cert.Chain.flat (X (Proc.devRef .tc main_v31)) := by
  after_results_simp
  rfl

/-- After the second product `main_v33` holds L · `main_v32`. -/
theorem lap1 : StableHlo.after (dotOps1 (F := Ideal)) X (Proc.devRef .tc main_v33)
    = Cert.Chain.lap (X (Proc.devRef .tc main_arg0)) (X (Proc.devRef .tc main_v32)) := by
  after_results_simp
  rfl

/-- After the second round's fifty-four operations `main_v62` holds the round's function of x = `main_v31`, L·x = `main_v33`
    and the second set of parameters, plus the input `main_arg2`. -/
theorem block1 : StableHlo.after (hostOps2_2b (F := Ideal)) (StableHlo.after (hostOps2_2a (F := Ideal)) (StableHlo.after (hostOps2_1 (F := Ideal)) (StableHlo.after (hostOps2 (F := Ideal)) X))) (Proc.devRef .tc main_v62)
    = addf (Cert.Chain.block (X (Proc.devRef .tc main_v31)) (X (Proc.devRef .tc main_v33)) (X (Proc.devRef .tc main_arg7)) (X (Proc.devRef .tc main_arg8)) (X (Proc.devRef .tc main_arg9)) (X (Proc.devRef .tc main_arg10))) (X (Proc.devRef .tc main_arg2)) := by
  after_results_simp
  rfl

end Stretches

/-! ## The whole line -/

/-- The fold over the whole line is the folds over the thirteen lists, one inside the other. -/
theorem ops_split (X : Valuation τ sig (Elt Ideal)) : StableHlo.after (ops (F := Ideal)) X
    = StableHlo.after (hostOps2_2b (F := Ideal)) (StableHlo.after (hostOps2_2a (F := Ideal)) (StableHlo.after (hostOps2_1 (F := Ideal)) (StableHlo.after (hostOps2 (F := Ideal)) (StableHlo.after (dotOps1 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (StableHlo.after (dotOps0 (F := Ideal)) (StableHlo.after (hostOps0_1 (F := Ideal)) (StableHlo.after (hostOps0 (F := Ideal)) X)))))))))))) := by
  simp only [ops, StableHlo.after_append]

/-- A buffer none of the thirteen lists writes holds at the end what it held at launch. -/
theorem ops_keep (X : Valuation τ sig (Elt Ideal)) (r : Ref sig .tc)
    (h0 : r ∉ hostOps0_W) (h1 : r ∉ hostOps0_1_W) (h2 : r ∉ dotOps0_W) (h3 : r ∉ hostOps1_W) (h4 : r ∉ hostOps1_1_W) (h5 : r ∉ hostOps1_2_W) (h6 : r ∉ hostOps1_3_W) (h7 : r ∉ hostOps1_4_W) (h8 : r ∉ dotOps1_W) (h9 : r ∉ hostOps2_W) (h10 : r ∉ hostOps2_1_W) (h11 : r ∉ hostOps2_2a_W) (h12 : r ∉ hostOps2_2b_W) :
    StableHlo.after (ops (F := Ideal)) X (Proc.devRef .tc r) = X (Proc.devRef .tc r) := by
  rw [ops_split, hostOps2_2b_keep _ r h12, hostOps2_2a_keep _ r h11, hostOps2_1_keep _ r h10, hostOps2_keep _ r h9, dotOps1_keep _ r h8, hostOps1_4_keep _ r h7, hostOps1_3_keep _ r h6, hostOps1_2_keep _ r h5, hostOps1_1_keep _ r h4, hostOps1_keep _ r h3, dotOps0_keep _ r h2, hostOps0_1_keep _ r h1, hostOps0_keep _ r h0]

/-- The result buffer at the end of the line: the eight stretches composed.  Reading backwards from `main_v62`, each
    buffer a stretch's function reads is either the result of an earlier stretch or a buffer that no stretch between
    writes. -/
theorem ops_result (X : Valuation τ sig (Elt Ideal)) : StableHlo.after (ops (F := Ideal)) X (Proc.devRef .tc main_v62)
    = Cert.Chain.result (X (Proc.devRef .tc main_arg0)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) := by
  rw [ops_split,
    block1 _,
    dotOps1_keep _ main_v31 (by decide),
    lap1 _,
    dotOps1_keep _ main_arg7 (by decide),
    dotOps1_keep _ main_arg8 (by decide),
    dotOps1_keep _ main_arg9 (by decide),
    dotOps1_keep _ main_arg10 (by decide),
    dotOps1_keep _ main_arg2 (by decide),
    hostOps1_4_keep _ main_v31 (by decide),
    hostOps1_4_keep _ main_arg0 (by decide),
    flat1 _,
    hostOps1_4_keep _ main_arg7 (by decide),
    hostOps1_4_keep _ main_arg8 (by decide),
    hostOps1_4_keep _ main_arg9 (by decide),
    hostOps1_4_keep _ main_arg10 (by decide),
    hostOps1_4_keep _ main_arg2 (by decide),
    act1 _,
    hostOps1_3_keep _ main_arg0 (by decide),
    hostOps1_3_keep _ main_arg7 (by decide),
    hostOps1_3_keep _ main_arg8 (by decide),
    hostOps1_3_keep _ main_arg9 (by decide),
    hostOps1_3_keep _ main_arg10 (by decide),
    hostOps1_3_keep _ main_arg2 (by decide),
    block0 _,
    hostOps1_2_keep _ main_arg0 (by decide),
    hostOps1_1_keep _ main_arg0 (by decide),
    hostOps1_keep _ main_arg0 (by decide),
    hostOps1_2_keep _ main_arg7 (by decide),
    hostOps1_1_keep _ main_arg7 (by decide),
    hostOps1_keep _ main_arg7 (by decide),
    hostOps1_2_keep _ main_arg8 (by decide),
    hostOps1_1_keep _ main_arg8 (by decide),
    hostOps1_keep _ main_arg8 (by decide),
    hostOps1_2_keep _ main_arg9 (by decide),
    hostOps1_1_keep _ main_arg9 (by decide),
    hostOps1_keep _ main_arg9 (by decide),
    hostOps1_2_keep _ main_arg10 (by decide),
    hostOps1_1_keep _ main_arg10 (by decide),
    hostOps1_keep _ main_arg10 (by decide),
    hostOps1_2_keep _ main_arg2 (by decide),
    hostOps1_1_keep _ main_arg2 (by decide),
    hostOps1_keep _ main_arg2 (by decide),
    dotOps0_keep _ main_v0 (by decide),
    lap0 _,
    dotOps0_keep _ main_arg3 (by decide),
    dotOps0_keep _ main_arg4 (by decide),
    dotOps0_keep _ main_arg5 (by decide),
    dotOps0_keep _ main_arg6 (by decide),
    dotOps0_keep _ main_arg0 (by decide),
    dotOps0_keep _ main_arg7 (by decide),
    dotOps0_keep _ main_arg8 (by decide),
    dotOps0_keep _ main_arg9 (by decide),
    dotOps0_keep _ main_arg10 (by decide),
    dotOps0_keep _ main_arg2 (by decide),
    hostOps0_1_keep _ main_v0 (by decide),
    hostOps0_1_keep _ main_arg0 (by decide),
    flat0 _,
    hostOps0_1_keep _ main_arg3 (by decide),
    hostOps0_1_keep _ main_arg4 (by decide),
    hostOps0_1_keep _ main_arg5 (by decide),
    hostOps0_1_keep _ main_arg6 (by decide),
    hostOps0_1_keep _ main_arg7 (by decide),
    hostOps0_1_keep _ main_arg8 (by decide),
    hostOps0_1_keep _ main_arg9 (by decide),
    hostOps0_1_keep _ main_arg10 (by decide),
    hostOps0_1_keep _ main_arg2 (by decide),
    act0 _,
    hostOps0_keep _ main_arg0 (by decide),
    hostOps0_keep _ main_arg3 (by decide),
    hostOps0_keep _ main_arg4 (by decide),
    hostOps0_keep _ main_arg5 (by decide),
    hostOps0_keep _ main_arg6 (by decide),
    hostOps0_keep _ main_arg7 (by decide),
    hostOps0_keep _ main_arg8 (by decide),
    hostOps0_keep _ main_arg9 (by decide),
    hostOps0_keep _ main_arg10 (by decide),
    hostOps0_keep _ main_arg2 (by decide)]
  rfl

/-! ## The run -/

/-- On the device, from any memory with zero counters: every weakly fair execution of the reference's @main terminates
    with `main_v62` at `Cert.Chain.result` of the launch contents of the arguments, and every argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62)
          = Cert.Chain.result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨(h c main_v62).trans (ops_result (launchContents m c)),
      (h c main_arg0).trans (ops_keep (launchContents m c) main_arg0 (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.lean ====
/-
  The certificate of the Laplacian block network: a kernel program against its jnp reference.

  Both programs compute, from L [8192, 8192], the input [4, 2048, 128] and two layers' parameters,

      x₀ = elu input,  y = round₀ (x₀, L · flat x₀),  x₁ = elu y,  result = round₁ (x₁, L · flat x₁) + input,

  where a round joins x and L · x along the features, normalises each of the 256 columns over the 8192 rows, and
  applies a linear layer.  The reference multiplies by L with one host matrix product; the kernel program launches a
  kernel that walks 8 row blocks by 4 contraction blocks of L, rounds both operand blocks to a narrower format,
  multiplies them on the matrix unit and accumulates the four partial products of a row block in the output block.
  Over the extended reals the change of format is the identity and the matrix unit's product into a zero
  accumulator is the exact sum, so a row block accumulates the four quarter sums of the same 8192 terms that the
  host's product adds: the two results are one function of the arguments, by associativity and commutativity of the
  sum alone — the precondition that the inputs are finite is not needed.  Everything else of the two programs is the
  same list of host operations and is carried along unopened (`Cert.Chain`).

  The three frames: the kernel program's and its idealization's are the generated frame proofs; the reference's is
  its run with the result dropped.  The ideal pass rewrote nothing, so the idealization claim is trivial.
-/
import proofs.«117367_j3496103379445_1_alg».proof.Defs
import proofs.«117367_j3496103379445_1_alg».proof.Proof.Gen.Kernel
import proofs.«117367_j3496103379445_1_alg».proof.Proof.Gen.Kernel.Skeleton
import proofs.«117367_j3496103379445_1_alg».proof.Proof.Gen.Kernel.Launch
import proofs.«117367_j3496103379445_1_alg».proof.Proof.Gen.Kernel.Points
import proofs.«117367_j3496103379445_1_alg».proof.Proof.Gen.Kernel.Frame
import proofs.«117367_j3496103379445_1_alg».proof.Proof.Gen.KernelIdeal
import proofs.«117367_j3496103379445_1_alg».proof.Proof.Gen.KernelIdeal.Skeleton
import proofs.«117367_j3496103379445_1_alg».proof.Proof.Gen.KernelIdeal.Launch
import proofs.«117367_j3496103379445_1_alg».proof.Proof.Gen.KernelIdeal.Points
import proofs.«117367_j3496103379445_1_alg».proof.Proof.Gen.KernelIdeal.Frame
import proofs.«117367_j3496103379445_1_alg».proof.Proof.Gen.ReferenceIdeal
import proofs.«117367_j3496103379445_1_alg».proof.Proof.Gen.Pre_finite_inputs
import proofs.«117367_j3496103379445_1_alg».proof.Proof.KerOut
import proofs.«117367_j3496103379445_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result forgotten. -/
theorem frame_ri : Cert.frame_ReferenceIdeal := fun m ρ _ =>
  (θ_run Cert.ReferenceIdeal.defs _ _).mono (fun _ h c => (h c).2) (Cert.ReferenceIdeal.RefValue.run m ρ)

/-- Both runs end with the result buffer at the shared composition of the arguments, and the arguments agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run m' ρ')
  obtain ⟨e0, -, e2, e3, e4, e5, e6, e7, e8, e9, e10⟩ := hagree c
  rw [e0, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
